-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S128x10 : Shape := ⟨2, ![128, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S128 .f32) (main_arg9 : FVec F S128x10 .f32) (main_arg10 : FVec F S10 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x10 .f32 := Host.absf main_arg9
  let main_cst_14 : FVec F S_ .f32 := constant S_ .f32 0x7F800000#32
  let main_v40 : FVec F S128x10 .f32 := broadcastInDim S128x10 ![] bcast_S_S128x10 main_cst_14
  let main_v41 : IVec S128x10 1 := cmpf .olt main_v39 main_v40
  let main_c_15 : IVec S_ 1 := constantI S_ 1 1#1
  let main_v42 : IVec S_ 1 := (fun x v => Host.reduce IntOp.andi x v reducesTo_S128x10_S_d0_1 h_S_) main_v41 main_c_15
  let main_v43 : IVec S_ 1 := andi main_v38 main_v42
  let main_v44 : FVec F S10 .f32 := Host.absf main_arg10
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg5 : FVec F S128x64 .f32) (main_arg6 : FVec F S64 .f32) (main_arg7 : FVec F S64x128 .f32) (main_arg8 : FVec F S128 .f32) (main_arg9 : FVec F S128x10 .f32) (main_arg10 : FVec F S10 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x64 .f32) (main_arg1 : IVec S2x1600000 32) (main_arg2 : FVec F S64x128 .f32) (main_arg3 : FVec F S128 .f32) (main_arg4 : FVec F S64x128 .f32) (main_arg5 : FVec F S128x64 .f32) (main_arg6 : FVec F S64 .f32) (main_arg7 : FVec F S64x128 .f32) (main_arg8 : FVec F S128 .f32) (main_arg9 : FVec F S128x10 .f32) (main_arg10 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x65 : Shape := ⟨2, ![100000, 65]⟩
abbrev S1600000x1 : Shape := ⟨2, ![1600000, 1]⟩
abbrev S1600000x65 : Shape := ⟨2, ![1600000, 65]⟩
abbrev S1x128 : Shape := ⟨2, ![1, 128]⟩
abbrev S1x64 : Shape := ⟨2, ![1, 64]⟩
abbrev S1x10 : Shape := ⟨2, ![1, 10]⟩
abbrev S100000x10 : Shape := ⟨2, ![100000, 10]⟩
abbrev S4000x64 : Shape := ⟨2, ![4000, 64]⟩
abbrev S4000x1 : Shape := ⟨2, ![4000, 1]⟩
abbrev S4000x10 : Shape := ⟨2, ![4000, 10]⟩
abbrev S4000x128 : Shape := ⟨2, ![4000, 128]⟩

abbrev nBuf : Space → Nat
  | .hbm => 38
  | .vmem => 17
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S100000x1, .f32⟩
  | .hbm, ⟨17, _⟩ => ⟨S100000x65, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x65, .f32⟩
  | .hbm, ⟨27, _⟩ => ⟨S_, .f32⟩
  | .hbm, ⟨28, _⟩ => ⟨S100000x65, .f32⟩
  | .hbm, ⟨29, _⟩ => ⟨S1600000x1, .i32⟩
  | .hbm, ⟨30, _⟩ => ⟨S100000x65, .f32⟩
  | .hbm, ⟨31, _⟩ => ⟨S100000x64, .f32⟩
  | .hbm, ⟨32, _⟩ => ⟨S100000x1, .f32⟩
  | .hbm, ⟨33, _⟩ => ⟨S1x128, .f32⟩
  | .hbm, ⟨34, _⟩ => ⟨S1x64, .f32⟩
  | .hbm, ⟨35, _⟩ => ⟨S1x128, .f32⟩
  | .hbm, ⟨36, _⟩ => ⟨S1x10, .f32⟩
  | .hbm, ⟨37, _⟩ => ⟨S100000x10, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x1, .f32⟩
  | .local _ .vmem, ⟨5, _⟩ => ⟨S4000x1, .f32⟩
  | .local _ .vmem, ⟨6, _⟩ => ⟨S64x128, .f32⟩
  | .local _ .vmem, ⟨7, _⟩ => ⟨S1x128, .f32⟩
  | .local _ .vmem, ⟨8, _⟩ => ⟨S64x128, .f32⟩
  | .local _ .vmem, ⟨9, _⟩ => ⟨S128x64, .f32⟩
  | .local _ .vmem, ⟨10, _⟩ => ⟨S1x64, .f32⟩
  | .local _ .vmem, ⟨11, _⟩ => ⟨S64x128, .f32⟩
  | .local _ .vmem, ⟨12, _⟩ => ⟨S1x128, .f32⟩
  | .local _ .vmem, ⟨13, _⟩ => ⟨S128x10, .f32⟩
  | .local _ .vmem, ⟨14, _⟩ => ⟨S1x10, .f32⟩
  | .local _ .vmem, ⟨15, _⟩ => ⟨S4000x10, .f32⟩
  | .local _ .vmem, ⟨16, _⟩ => ⟨S4000x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4000x10 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x1 : S_.BroadcastsInDim S100000x1 (![] : Fin 0 → Fin S100000x1.rank)
  concatenates_S100000x64_S100000x1_S100000x65_d1 : Shape.Concatenates [S100000x64, S100000x1] S100000x65 1
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x65 : S_.BroadcastsInDim S100000x65 (![] : Fin 0 → Fin S100000x65.rank)
  slices_S100000x65_S100000x64_0_0 : S100000x65.Slices ![0, 0] S100000x64
  slices_S100000x65_S100000x1_0_64 : S100000x65.Slices ![0, 64] S100000x1
  shapeCasts_S128_S1x128 : S128.ShapeCasts S1x128
  shapeCasts_S64_S1x64 : S64.ShapeCasts S1x64
  shapeCasts_S10_S1x10 : S10.ShapeCasts S1x10
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S4000x1_S4000x64 : S4000x1.Broadcasts S4000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S4000x10 : S1x10.Broadcasts S4000x10
  inb_S4000x10_S4000x10_0_0 : ∀ a, (![0, 0] : Fin 2 → Nat) a + S4000x10.size a ≤ S4000x10.size a
  h_S4000x10 : 0 < S4000x10.numel
  gather_S100000x65_S1600000x1_S1600000x65_1_0_n_n_0_1_165_wf : GatherDims.WF S100000x65 S1600000x1 S1600000x65 [1] [0] [] [0] [] 1 ![1, 65]
  scatter_S100000x65_S1600000x1_S1600000x65_1_0_0_1_wf : ScatterDims.WF S100000x65 S1600000x1 S1600000x65 [1] [0] [0] 1
  dot_S4000x64_S64x128_S4000x128_1_0_0_1_n_n_wf : DotDims.WF S4000x64 S64x128 S4000x128 [1] [0] [0] [1] [] []
  dot_S4000x128_S128x64_S4000x64_1_0_0_1_n_n_wf : DotDims.WF S4000x128 S128x64 S4000x64 [1] [0] [0] [1] [] []
  dot_S4000x128_S128x10_S4000x10_1_0_0_1_n_n_wf : DotDims.WF S4000x128 S128x10 S4000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S64x128.size a
  hwx0_8 : ∀ i : grid0.Coords, EltTy.bits .f32 = 32 ∨ (Rect.block (s := S64x128) S64x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x10.size a ≤ S128x10.size a
  hwx0_10 : ∀ i : grid0.Coords, EltTy.bits .f32 = 32 ∨ (Rect.block (s := S128x10) S128x10.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x10.size a ≤ S1x10.size a
  hwx0_11 : ∀ i : grid0.Coords, EltTy.bits .f32 = 32 ∨ (Rect.block (s := S1x10) S1x10.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S4000x10.size a ≤ S100000x10.size a
  hwx0_12 : ∀ i : grid0.Coords, EltTy.bits .f32 = 32 ∨ (Rect.block (s := S100000x10) S4000x10.size (cc0_transform_12 i) (hinb0_12 i)).WholeWords (EltTy.packing .f32)

variable [Facts₀]

def gather_S100000x65_S1600000x1_S1600000x65_1_0_n_n_0_1_165 : GatherDims S100000x65 S1600000x1 S1600000x65 where
  offsetDims := [1]
  collapsedSliceDims := [0]
  operandBatchingDims := []
  startIndicesBatchingDims := []
  startIndexMap := [0]
  indexVectorDim := 1
  sliceSizes := ![1, 65]
  wf := gather_S100000x65_S1600000x1_S1600000x65_1_0_n_n_0_1_165_wf
def scatter_S100000x65_S1600000x1_S1600000x65_1_0_0_1 : ScatterDims S100000x65 S1600000x1 S1600000x65 where
  updateWindowDims := [1]
  insertedWindowDims := [0]
  scatterDimsToOperandDims := [0]
  indexVectorDim := 1
  wf := scatter_S100000x65_S1600000x1_S1600000x65_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x128_S128x10_S4000x10_1_0_0_1_n_n : DotDims S4000x128 S128x10 S4000x10 where
  lhsContracting := [1]
  rhsContracting := [0]
  lhsNonContracting := [0]
  rhsNonContracting := [1]
  lhsBatch := []
  rhsBatch := []
  wf := dot_S4000x128_S128x10_S4000x10_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S128x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S1x10.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v22) S4000x10.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1x64 : Shape := ⟨2, ![1, 64]⟩
abbrev S100000x10 : Shape := ⟨2, ![100000, 10]⟩
abbrev S1x10 : Shape := ⟨2, ![1, 10]⟩

abbrev nBuf : Space → Nat
  | .hbm => 64
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x10, .f32⟩
  | .hbm, ⟨10, _⟩ => ⟨S10, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S100000x10, .f32⟩
  | .hbm, ⟨61, _⟩ => ⟨S1x10, .f32⟩
  | .hbm, ⟨62, _⟩ => ⟨S100000x10, .f32⟩
  | .hbm, ⟨63, _⟩ => ⟨S100000x10, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call1_cst : Ref sig .tc := ⟨.hbm, 57, rfl⟩
abbrev main_call1_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x128 : S_.BroadcastsInDim S100000x128 (![] : Fin 0 → Fin S100000x128.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  dot_S100000x128_S128x64_S100000x64_1_0_0_1_n_n_wf : DotDims.WF S100000x128 S128x64 S100000x64 [1] [0] [0] [1] [] []
  dot_S100000x128_S128x10_S100000x10_1_0_0_1_n_n_wf : DotDims.WF S100000x128 S128x10 S100000x10 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf

class Facts : Prop extends Facts₀ where

variable [Facts]
-- ==== Proof.RowSpec.lean ====
/-
  One node of the graph layer, as a function of that node's own rows.

  Every step after the neighbour aggregation acts on one node at a time: the node's feature row `x` (64 numbers), the
  sum `a` of its in-neighbours' feature rows (64 numbers) and its in-degree `d` determine its ten logits. The mean of
  the neighbours is `a / max d 1`; the convolution is `mean · W_l + b_l + x · W_r`; two dense layers with a rectifier and
  one without follow. All of it is stated on the extended reals, the sums as finite sums, the constants one and zero as
  the 32-bit words the programs carry.
-/
import Idealize.ShloMosaic.PureOps.Ideal
import Idealize.ShloMosaic.Lib.ValueIdx

noncomputable section

open scoped BigOperators

namespace Cert.SageRow

open Idealize.ShloMosaic

/-- The word of the float one. -/
abbrev one : EReal := Ideal.ofBits .f32 0x3F800000#32
/-- The word of the float zero. -/
abbrev zero : EReal := Ideal.ofBits .f32 0x00000000#32

/-- The mean of the in-neighbours' rows: the summed row over the in-degree, an isolated node's degree read as one. -/
def meanRow (a : Fin 64 → EReal) (d : EReal) : Fin 64 → EReal :=
  fun k => Ideal.div (a k) (max d one)

/-- The convolution: the neighbours' mean through `Wl`, the bias, and the node's own row through `Wr`. -/
def convRow (x mn : Fin 64 → EReal) (Wl : Fin 64 → Fin 128 → EReal) (bl : Fin 128 → EReal)
    (Wr : Fin 64 → Fin 128 → EReal) : Fin 128 → EReal :=
  fun j => (∑ k : Fin 64, mn k * Wl k j) + bl j + ∑ k : Fin 64, x k * Wr k j

/-- A dense layer: the row through the weights, plus the bias. -/
def dense {a b : ℕ} (h : Fin a → EReal) (W : Fin a → Fin b → EReal) (bias : Fin b → EReal) : Fin b → EReal :=
  fun i => (∑ j : Fin a, h j * W j i) + bias i

/-- A dense layer followed by the rectifier. -/
def denseRelu {a b : ℕ} (h : Fin a → EReal) (W : Fin a → Fin b → EReal) (bias : Fin b → EReal) : Fin b → EReal :=
  fun i => max (dense h W bias i) zero

/-- The node's ten logits. -/
def rowOut (x a : Fin 64 → EReal) (d : EReal)
    (Wl : Fin 64 → Fin 128 → EReal) (bl : Fin 128 → EReal) (Wr : Fin 64 → Fin 128 → EReal)
    (W1 : Fin 128 → Fin 64 → EReal) (b1 : Fin 64 → EReal)
    (W2 : Fin 64 → Fin 128 → EReal) (b2 : Fin 128 → EReal)
    (W3 : Fin 128 → Fin 10 → EReal) (b3 : Fin 10 → EReal) : Fin 10 → EReal :=
  dense (denseRelu (denseRelu (convRow x (meanRow a d) Wl bl Wr) W1 b1) W2 b2) W3 b3

end Cert.SageRow

end
-- ==== Proof.RefIsSpec.lean ====
/-
  The reference's result, node by node.

  The reference divides the aggregated rows by the clamped degree, applies the convolution
  `mean · W_l + b_l + x · W_r` and the three dense layers to whole arrays. Each of these steps reads, for node `n`, only
  row `n` of its operand, so entry `(n, o)` of the result is the row function `rowOut` of node `n`'s own feature row, its
  aggregated row and its degree. The aggregation and the degree count are carried as the reference's own two stages,
  unopened.
-/
import proofs.«150635_j36893769072799_2_alg».proof.Proof.Gen.ReferenceIdeal.Read
import proofs.«150635_j36893769072799_2_alg».proof.Proof.RowSpec

noncomputable section

open scoped BigOperators

namespace Cert.ReferenceIdeal.RefValue

open Cert.ReferenceIdeal Cert.ReferenceIdeal.Read Idealize.ShloMosaic Idealize.ShloMosaic.ValueIdx Cert.SageRow

variable (x0 : (⟨S100000x64, .f32⟩ : BufTy).Contents (Elt Ideal)) (x1 : (⟨S2x1600000, .i32⟩ : BufTy).Contents (Elt Ideal))
  (x2 : (⟨S64x128, .f32⟩ : BufTy).Contents (Elt Ideal)) (x3 : (⟨S128, .f32⟩ : BufTy).Contents (Elt Ideal)) (x4 : (⟨S64x128, .f32⟩ : BufTy).Contents (Elt Ideal)) (x5 : (⟨S128x64, .f32⟩ : BufTy).Contents (Elt Ideal)) (x6 : (⟨S64, .f32⟩ : BufTy).Contents (Elt Ideal))
  (x7 : (⟨S64x128, .f32⟩ : BufTy).Contents (Elt Ideal)) (x8 : (⟨S128, .f32⟩ : BufTy).Contents (Elt Ideal)) (x9 : (⟨S128x10, .f32⟩ : BufTy).Contents (Elt Ideal)) (x10 : (⟨S10, .f32⟩ : BufTy).Contents (Elt Ideal))

/-- Node `n`'s aggregated row. -/
abbrev aggRow (n : Fin 100000) : Fin 64 → EReal := fun k => val_main_v13 (F := Ideal) x0 x1 (ix2 n k)
/-- Node `n`'s in-degree. -/
abbrev degAt (n : Fin 100000) : EReal := val_main_v17 (F := Ideal) x1 (ix1 n)

/-- The mean of the neighbours: the aggregated entry over the degree clamped below by one. -/
theorem mean_at (n : Fin 100000) (k : Fin 64) :
    val_main_v22 (F := Ideal) x0 x1 (ix2 n k) = meanRow (aggRow x0 x1 n) (degAt x1 n) k := by
  rw [val_main_v22_apply, val_main_v21_apply, val_main_v20_apply, val_main_v19_apply, val_main_v18_apply,
    val_main_cst_3_apply]
  have e1 : idx_main_v20 (idx_main_v21 (ix2 n k)) = ix1 n :=
    funext fun a => Fin.ext (by match a with | ⟨0, _⟩ => rfl)
  rw [e1]
  rfl

/-- The convolution at `(n, j)`. -/
theorem conv_at (n : Fin 100000) (j : Fin 128) :
    val_main_v28 (F := Ideal) x0 x1 x2 x3 x4 (ix2 n j)
      = convRow (fun k => x0 (ix2 n k)) (meanRow (aggRow x0 x1 n) (degAt x1 n))
          (fun k j' => x2 (ix2 k j')) (fun j' => x3 (ix1 j')) (fun k j' => x4 (ix2 k j')) j := by
  rw [val_main_v28_apply, val_main_v26_apply, val_main_v23_apply, val_main_v25_apply, val_main_v24_apply,
    val_main_v27_apply]
  have el : ∀ k : Fin 64, lidx_main_v23 (ix2 n j) k = ix2 n k := fun k =>
    funext fun a => Fin.ext (by match a with | ⟨0, _⟩ => rfl | ⟨1, _⟩ => rfl)
  have er : ∀ k : Fin 64, ridx_main_v23 (ix2 n j) k = ix2 k j := fun k =>
    funext fun a => Fin.ext (by match a with | ⟨0, _⟩ => rfl | ⟨1, _⟩ => rfl)
  have el' : ∀ k : Fin 64, lidx_main_v27 (ix2 n j) k = ix2 n k := fun k =>
    funext fun a => Fin.ext (by match a with | ⟨0, _⟩ => rfl | ⟨1, _⟩ => rfl)
  have er' : ∀ k : Fin 64, ridx_main_v27 (ix2 n j) k = ix2 k j := fun k =>
    funext fun a => Fin.ext (by match a with | ⟨0, _⟩ => rfl | ⟨1, _⟩ => rfl)
  have eb : idx_main_v24 (idx_main_v25 (ix2 n j)) = ix1 j :=
    funext fun a => Fin.ext (by match a with | ⟨0, _⟩ => rfl)
  simp only [el, er, el', er', eb, mean_at]
  rfl

/-- The first dense layer with its rectifier at `(n, i)`. -/
theorem hid1_at (n : Fin 100000) (i : Fin 64) :
    val_main_v33 (F := Ideal) x0 x1 x2 x3 x4 x5 x6 (ix2 n i)
      = denseRelu (convRow (fun k => x0 (ix2 n k)) (meanRow (aggRow x0 x1 n) (degAt x1 n))
          (fun k j' => x2 (ix2 k j')) (fun j' => x3 (ix1 j')) (fun k j' => x4 (ix2 k j')))
          (fun j i' => x5 (ix2 j i')) (fun i' => x6 (ix1 i')) i := by
  rw [val_main_v33_apply, val_main_v32_apply, val_main_v29_apply, val_main_v31_apply, val_main_v30_apply,
    val_main_call0_v0_apply, val_main_call0_cst_apply]
  have el : ∀ k : Fin 128, lidx_main_v29 (ix2 n i) k = ix2 n k := fun k =>
    funext fun a => Fin.ext (by match a with | ⟨0, _⟩ => rfl | ⟨1, _⟩ => rfl)
  have er : ∀ k : Fin 128, ridx_main_v29 (ix2 n i) k = ix2 k i := fun k =>
    funext fun a => Fin.ext (by match a with | ⟨0, _⟩ => rfl | ⟨1, _⟩ => rfl)
  have eb : idx_main_v30 (idx_main_v31 (ix2 n i)) = ix1 i :=
    funext fun a => Fin.ext (by match a with | ⟨0, _⟩ => rfl)
  simp only [el, er, eb, conv_at]
  rfl

/-- The second dense layer with its rectifier at `(n, j)`. -/
theorem hid2_at (n : Fin 100000) (j : Fin 128) :
    val_main_v38 (F := Ideal) x0 x1 x2 x3 x4 x5 x6 x7 x8 (ix2 n j)
      = denseRelu (denseRelu (convRow (fun k => x0 (ix2 n k)) (meanRow (aggRow x0 x1 n) (degAt x1 n))
          (fun k j' => x2 (ix2 k j')) (fun j' => x3 (ix1 j')) (fun k j' => x4 (ix2 k j')))
          (fun j' i' => x5 (ix2 j' i')) (fun i' => x6 (ix1 i')))
          (fun i' j' => x7 (ix2 i' j')) (fun j' => x8 (ix1 j')) j := by
  rw [val_main_v38_apply, val_main_v37_apply, val_main_v34_apply, val_main_v36_apply, val_main_v35_apply,
    val_main_call1_v0_apply, val_main_call1_cst_apply]
  have el : ∀ k : Fin 64, lidx_main_v34 (ix2 n j) k = ix2 n k := fun k =>
    funext fun a => Fin.ext (by match a with | ⟨0, _⟩ => rfl | ⟨1, _⟩ => rfl)
  have er : ∀ k : Fin 64, ridx_main_v34 (ix2 n j) k = ix2 k j := fun k =>
    funext fun a => Fin.ext (by match a with | ⟨0, _⟩ => rfl | ⟨1, _⟩ => rfl)
  have eb : idx_main_v35 (idx_main_v36 (ix2 n j)) = ix1 j :=
    funext fun a => Fin.ext (by match a with | ⟨0, _⟩ => rfl)
  simp only [el, er, eb, hid1_at]
  rfl

/-- THE REFERENCE'S RESULT at `(n, o)` is the row function of node `n`'s rows. -/
theorem out_at (n : Fin 100000) (o : Fin 10) :
    val_main_v42 (F := Ideal) x0 x1 x2 x3 x4 x5 x6 x7 x8 x9 x10 (ix2 n o)
      = rowOut (fun k => x0 (ix2 n k)) (aggRow x0 x1 n) (degAt x1 n)
          (fun k j => x2 (ix2 k j)) (fun j => x3 (ix1 j)) (fun k j => x4 (ix2 k j))
          (fun j i => x5 (ix2 j i)) (fun i => x6 (ix1 i))
          (fun i j => x7 (ix2 i j)) (fun j => x8 (ix1 j))
          (fun j o' => x9 (ix2 j o')) (fun o' => x10 (ix1 o')) o := by
  rw [val_main_v42_apply, val_main_v39_apply, val_main_v41_apply, val_main_v40_apply]
  have el : ∀ k : Fin 128, lidx_main_v39 (ix2 n o) k = ix2 n k := fun k =>
    funext fun a => Fin.ext (by match a with | ⟨0, _⟩ => rfl | ⟨1, _⟩ => rfl)
  have er : ∀ k : Fin 128, ridx_main_v39 (ix2 n o) k = ix2 k o := fun k =>
    funext fun a => Fin.ext (by match a with | ⟨0, _⟩ => rfl | ⟨1, _⟩ => rfl)
  have eb : idx_main_v40 (idx_main_v41 (ix2 n o)) = ix1 o :=
    funext fun a => Fin.ext (by match a with | ⟨0, _⟩ => rfl)
  simp only [el, er, eb, hid2_at]
  rfl

end Cert.ReferenceIdeal.RefValue

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.LibKeepDims.lean ====
/-
  Two keep-dimension layout steps read at an index, for any extents.

  A reduction that keeps its reduced axis (a row sum kept as a column) is printed as a vector [a] viewed as a column
  [a, 1], and its result is spread back along the rows by a broadcast [a, 1] → [a, b]. A row-major view keeps an
  element's position, and position i of the vector is position i · 1 + 0 of the column, so the column reads the vector's
  entry i at (i, 0); the broadcast repeats the column's entry of row p at every (p, c).
-/
import Idealize.ShloMosaic.Lib.ValueIdx
import Idealize.ShloMosaic.Lib.Pipeline.Value

namespace Cert.Lib.KeepDims

open Idealize.ShloMosaic Idealize.ShloMosaic.ValueIdx

/-- A vector `[a]` viewed as a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepDims
-- ==== Proof.KernelRow.lean ====
/-
  The kernel body's stored value at one entry, as the row function of the loaded blocks.

  Every operation of the body acts on one row of its 4000-row block at a time. At the ideal values a narrowing format
  change is the identity, a matrix product into the zero accumulator is the plain sum of products over the contracted
  axis, a [1, b] → [n, b] broadcast repeats the one row, a [n, 1] → [n, c] broadcast repeats each row's one entry, and
  the pointwise operations act entrywise. So each layer of the body, read at an entry (p, ·), is the corresponding
  layer of the row function applied to row p of the layer's input: first the mean of the aggregated row over the
  clamped degree, then the convolution, then the two rectified dense layers, then the last dense layer. The body adds
  the three summands of the convolution as (mean·Wl + x·Wr) + bl, the row function as (mean·Wl + bl) + x·Wr; addition
  of extended reals is commutative and associative, so the two agree.
-/
import proofs.«150635_j36893769072799_2_alg».proof.Proof.Gen.KernelIdeal.Frame
import proofs.«150635_j36893769072799_2_alg».proof.Proof.RowSpec
import proofs.«150635_j36893769072799_2_alg».proof.Proof.LibPlainDot
import proofs.«150635_j36893769072799_2_alg».proof.Proof.LibKeepDims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.RowValue

open Idealize.ShloMosaic Idealize.ShloMosaic.ValueIdx Cert.KernelIdeal Cert.KernelIdeal.Gen

/-! ## The layers at an entry, for any extents -/

section Layers

variable {n a b : ℕ}

/-- A matrix product with the plain dimension numbers into the zero accumulator, at entry (p, o), whatever the
    operands' formats: the sum over the contracted axis of the products of the entries. -/
theorem mm_apply {φ₁ φ₂ : FTy} (d : DotDims ⟨2, ![n, a]⟩ ⟨2, ![a, b]⟩ ⟨2, ![n, b]⟩) (hd : d = DotDims.plain n a b)
    (L : FVec Ideal ⟨2, ![n, a]⟩ φ₁) (R : FVec Ideal ⟨2, ![a, b]⟩ φ₂) (p : Fin n) (o : Fin b) :
    matmul d none L R (constant ⟨2, ![n, b]⟩ .f32 0x00000000#32) (ix2 p o)
      = ∑ k : Fin a, L (ix2 p k) * R (ix2 k o) := by
  subst hd
  exact (Ideal.matmul_constant_zero_apply (DotDims.plain n a b) none L R (ix2 p o)).trans
    (Cert.LibPlainDot.sum_contr L R p o)

/-- A bias row, cast to its own shape and broadcast over the rows, at entry (p, o): the bias at o. -/
theorem bias_apply (bias : FVec Ideal ⟨2, ![1, b]⟩ .f32) (hsc : (⟨2, ![1, b]⟩ : Shape).ShapeCasts ⟨2, ![1, b]⟩)
    (hbc : (⟨2, ![1, b]⟩ : Shape).Broadcasts ⟨2, ![n, b]⟩) (p : Fin n) (o : Fin b) :
    broadcastTo ⟨2, ![n, b]⟩ (shapeCast ⟨2, ![1, b]⟩ bias hsc) hbc (ix2 p o) = bias (ix2 (0 : Fin 1) o) := by
  rw [broadcastTo_1b_ab_apply, shapeCast_self]

/-- A dense layer of the body at entry (p, o): the dense layer of the row function on row p of its input. -/
theorem dense_apply {φ₁ φ₂ : FTy} (d : DotDims ⟨2, ![n, a]⟩ ⟨2, ![a, b]⟩ ⟨2, ![n, b]⟩) (hd : d = DotDims.plain n a b)
    (h : FVec Ideal ⟨2, ![n, a]⟩ φ₁) (W : FVec Ideal ⟨2, ![a, b]⟩ φ₂) (bias : FVec Ideal ⟨2, ![1, b]⟩ .f32)
    (hsc : (⟨2, ![1, b]⟩ : Shape).ShapeCasts ⟨2, ![1, b]⟩) (hbc : (⟨2, ![1, b]⟩ : Shape).Broadcasts ⟨2, ![n, b]⟩)
    (p : Fin n) (o : Fin b) :
    addf (matmul d none h W (constant ⟨2, ![n, b]⟩ .f32 0x00000000#32))
        (broadcastTo ⟨2, ![n, b]⟩ (shapeCast ⟨2, ![1, b]⟩ bias hsc) hbc) (ix2 p o)
      = Cert.SageRow.dense (fun k => h (ix2 p k)) (fun k j => W (ix2 k j)) (fun j => bias (ix2 (0 : Fin 1) j)) o := by
  show matmul d none h W (constant ⟨2, ![n, b]⟩ .f32 0x00000000#32) (ix2 p o)
      + broadcastTo ⟨2, ![n, b]⟩ (shapeCast ⟨2, ![1, b]⟩ bias hsc) hbc (ix2 p o) = _
  rw [mm_apply d hd, bias_apply]
  rfl

/-- A dense layer followed by the rectifier, at entry (p, o). -/
theorem denseRelu_apply {φ₁ φ₂ : FTy} (d : DotDims ⟨2, ![n, a]⟩ ⟨2, ![a, b]⟩ ⟨2, ![n, b]⟩) (hd : d = DotDims.plain n a b)
    (h : FVec Ideal ⟨2, ![n, a]⟩ φ₁) (W : FVec Ideal ⟨2, ![a, b]⟩ φ₂) (bias : FVec Ideal ⟨2, ![1, b]⟩ .f32)
    (hsc : (⟨2, ![1, b]⟩ : Shape).ShapeCasts ⟨2, ![1, b]⟩) (hbc : (⟨2, ![1, b]⟩ : Shape).Broadcasts ⟨2, ![n, b]⟩)
    (p : Fin n) (o : Fin b) :
    maximumf (addf (matmul d none h W (constant ⟨2, ![n, b]⟩ .f32 0x00000000#32))
          (broadcastTo ⟨2, ![n, b]⟩ (shapeCast ⟨2, ![1, b]⟩ bias hsc) hbc))
        (broadcast ⟨2, ![n, b]⟩ (Scalar.ofBits .f32 0x00000000#32)) (ix2 p o)
      = Cert.SageRow.denseRelu (fun k => h (ix2 p k)) (fun k j => W (ix2 k j)) (fun j => bias (ix2 (0 : Fin 1) j)) o := by
  show max (addf (matmul d none h W (constant ⟨2, ![n, b]⟩ .f32 0x00000000#32))
          (broadcastTo ⟨2, ![n, b]⟩ (shapeCast ⟨2, ![1, b]⟩ bias hsc) hbc) (ix2 p o)) Cert.SageRow.zero = _
  rw [dense_apply d hd]
  rfl

end Layers

/-! ## The mean and the convolution at an entry -/

section Conv

variable {n : ℕ}

/-- The aggregated block over the clamped degree column, at entry (p, k): row p's entry over its clamped degree. -/
theorem mean_apply (agg : FVec Ideal ⟨2, ![n, 64]⟩ .f32) (deg : FVec Ideal ⟨2, ![n, 1]⟩ .f32)
    (hsd : (⟨2, ![n, 1]⟩ : Shape).ShapeCasts ⟨2, ![n, 1]⟩) (hsa : (⟨2, ![n, 64]⟩ : Shape).ShapeCasts ⟨2, ![n, 64]⟩)
    (hbc : (⟨2, ![n, 1]⟩ : Shape).Broadcasts ⟨2, ![n, 64]⟩) (p : Fin n) (k : Fin 64) :
    divf (shapeCast ⟨2, ![n, 64]⟩ agg hsa)
        (broadcastTo ⟨2, ![n, 64]⟩
          (maximumf (shapeCast ⟨2, ![n, 1]⟩ deg hsd) (broadcast ⟨2, ![n, 1]⟩ (Scalar.ofBits .f32 0x3F800000#32))) hbc)
        (ix2 p k)
      = Cert.SageRow.meanRow (fun k => agg (ix2 p k)) (deg (ix2 p (0 : Fin 1))) k := by
  show Ideal.div (shapeCast ⟨2, ![n, 64]⟩ agg hsa (ix2 p k))
      (broadcastTo ⟨2, ![n, 64]⟩
        (maximumf (shapeCast ⟨2, ![n, 1]⟩ deg hsd) (broadcast ⟨2, ![n, 1]⟩ (Scalar.ofBits .f32 0x3F800000#32))) hbc
        (ix2 p k)) = _
  rw [Cert.Lib.KeepDims.broadcastTo_a1_ab_apply, shapeCast_self, shapeCast_self]
  rfl

/-- The convolution of the body at entry (p, j): the two products into the zero accumulator, added, plus the bias
    row; the row function adds the bias before the second product. -/
theorem conv_apply {φ₁ φ₂ φ₃ φ₄ : FTy} (d : DotDims ⟨2, ![n, 64]⟩ ⟨2, ![64, 128]⟩ ⟨2, ![n, 128]⟩)
    (hd : d = DotDims.plain n 64 128)
    (M : FVec Ideal ⟨2, ![n, 64]⟩ φ₁) (Wl : FVec Ideal ⟨2, ![64, 128]⟩ φ₂)
    (X : FVec Ideal ⟨2, ![n, 64]⟩ φ₃) (Wr : FVec Ideal ⟨2, ![64, 128]⟩ φ₄) (bl : FVec Ideal ⟨2, ![1, 128]⟩ .f32)
    (hsc : (⟨2, ![1, 128]⟩ : Shape).ShapeCasts ⟨2, ![1, 128]⟩)
    (hbc : (⟨2, ![1, 128]⟩ : Shape).Broadcasts ⟨2, ![n, 128]⟩) (p : Fin n) (j : Fin 128) :
    addf (addf (matmul d none M Wl (constant ⟨2, ![n, 128]⟩ .f32 0x00000000#32))
          (matmul d none X Wr (constant ⟨2, ![n, 128]⟩ .f32 0x00000000#32)))
        (broadcastTo ⟨2, ![n, 128]⟩ (shapeCast ⟨2, ![1, 128]⟩ bl hsc) hbc) (ix2 p j)
      = Cert.SageRow.convRow (fun k => X (ix2 p k)) (fun k => M (ix2 p k)) (fun k j => Wl (ix2 k j))
          (fun j => bl (ix2 (0 : Fin 1) j)) (fun k j => Wr (ix2 k j)) j := by
  show (matmul d none M Wl (constant ⟨2, ![n, 128]⟩ .f32 0x00000000#32) (ix2 p j)
        + matmul d none X Wr (constant ⟨2, ![n, 128]⟩ .f32 0x00000000#32) (ix2 p j))
      + broadcastTo ⟨2, ![n, 128]⟩ (shapeCast ⟨2, ![1, 128]⟩ bl hsc) hbc (ix2 p j) = _
  rw [mm_apply d hd, mm_apply d hd, bias_apply]
  exact add_right_comm _ _ _

end Conv

/-! ## The payloads at an entry -/

/-- A narrowing from f32 to bf16 is the identity on extended reals, at any index. -/
theorem narrow_apply {s : Shape} (a : FVec Ideal s .f32) (h : FTy.bits .bf16 < FTy.bits .f32) (i : s.Idx) :
    (truncf .bf16 a h : FVec Ideal s .bf16) i = a i := rfl

/-- The last weights' narrowing is the identity. -/
theorem pay3_apply (v33 : FVec Ideal S64x128 .f32) (k : Fin 64) (j : Fin 128) :
    k0_pay3 (F := Ideal) v33 (ix2 k j) = v33 (ix2 k j) := rfl

/-- The body's second hidden layer's input — the first rectified dense layer of the convolution — at entry (p, i). -/
theorem pay2_apply (v0 : FVec Ideal S4000x1 .f32) (v4 v8 : FVec Ideal S4000x64 .f32) (v11 v13 : FVec Ideal S64x128 .f32)
    (v18 : FVec Ideal S1x128 .f32) (v23 : FVec Ideal S128x64 .f32) (v26 : FVec Ideal S1x64 .f32)
    (p : Fin 4000) (i : Fin 64) :
    k0_pay2 (F := Ideal) v0 v4 v8 v11 v13 v18 v23 v26 (ix2 p i)
      = Cert.SageRow.denseRelu
          (Cert.SageRow.convRow (fun k => v8 (ix2 p k))
            (Cert.SageRow.meanRow (fun k => v4 (ix2 p k)) (v0 (ix2 p (0 : Fin 1))))
            (fun k j => v11 (ix2 k j)) (fun j => v18 (ix2 (0 : Fin 1) j)) (fun k j => v13 (ix2 k j)))
          (fun j i => v23 (ix2 j i)) (fun i => v26 (ix2 (0 : Fin 1) i)) i := by
  unfold k0_pay2
  refine (narrow_apply _ _ _).trans ?_
  refine (denseRelu_apply _ rfl _ _ _ _ _ p i).trans ?_
  refine congrArg (fun h => Cert.SageRow.denseRelu h _ _ i) (funext fun j => ?_)
  refine (narrow_apply _ _ _).trans ?_
  refine (conv_apply _ rfl _ _ _ _ _ _ _ p j).trans ?_
  refine congrArg (fun mn => Cert.SageRow.convRow _ mn _ _ _ j) (funext fun k => ?_)
  refine (narrow_apply _ _ _).trans ?_
  exact mean_apply _ _ _ _ _ p k

/-- The stored value at entry (p, o), from the second hidden layer's input and weights. -/
theorem pay1_apply (v32 : FVec Ideal S4000x64 .bf16) (v34 : FVec Ideal S64x128 .bf16) (v36 : FVec Ideal S1x128 .f32)
    (v43 : FVec Ideal S128x10 .f32) (v46 : FVec Ideal S1x10 .f32) (p : Fin 4000) (o : Fin 10) :
    k0_pay1 (F := Ideal) v32 v34 (constant S4000x128 .f32 0x00000000#32) v36 v43 v46 (ix2 p o)
      = Cert.SageRow.dense
          (Cert.SageRow.denseRelu (fun k => v32 (ix2 p k)) (fun k j => v34 (ix2 k j)) (fun j => v36 (ix2 (0 : Fin 1) j)))
          (fun j o' => v43 (ix2 j o')) (fun o' => v46 (ix2 (0 : Fin 1) o')) o := by
  unfold k0_pay1
  refine (dense_apply _ rfl _ _ _ _ _ p o).trans ?_
  refine congrArg (fun h => Cert.SageRow.dense h _ _ o) (funext fun j => ?_)
  refine (narrow_apply _ _ _).trans ?_
  exact denseRelu_apply _ rfl _ _ _ _ _ p j

/-! ## The stored block at an entry -/

/-- The value the body stores at (p, o) is the row function of row p of the loaded blocks. -/
theorem out_row (x0 : Vec Ideal S4000x64 .f32) (x1 : Vec Ideal S4000x64 .f32) (x2 : Vec Ideal S4000x1 .f32) (x3 : Vec Ideal S64x128 .f32) (x4 : Vec Ideal S1x128 .f32) (x5 : Vec Ideal S64x128 .f32) (x6 : Vec Ideal S128x64 .f32) (x7 : Vec Ideal S1x64 .f32) (x8 : Vec Ideal S64x128 .f32) (x9 : Vec Ideal S1x128 .f32) (x10 : Vec Ideal S128x10 .f32) (x11 : Vec Ideal S1x10 .f32) (p : Fin 4000) (o : Fin 10) :
    out0_12 (F := Ideal) x0 x1 x2 x3 x4 x5 x6 x7 x8 x9 x10 x11 (ix2 p o)
      = Cert.SageRow.rowOut (fun k => x0 (ix2 p k)) (fun k => x1 (ix2 p k)) (x2 (ix2 p (0 : Fin 1)))
          (fun k j => x3 (ix2 k j)) (fun j => x4 (ix2 (0 : Fin 1) j)) (fun k j => x5 (ix2 k j))
          (fun j i => x6 (ix2 j i)) (fun i => x7 (ix2 (0 : Fin 1) i))
          (fun i j => x8 (ix2 i j)) (fun j => x9 (ix2 (0 : Fin 1) j))
          (fun j o' => x10 (ix2 j o')) (fun o' => x11 (ix2 (0 : Fin 1) o')) o := by
  have hz : (![0, 0] : Fin 2 → Nat) = fun _ => 0 := funext fun a => by fin_cases a <;> rfl
  unfold out0_12
  rw [View.canon_unit_zero hz]
  simp only [View.ld_unit_zero (S := S4000x64) hz, View.ld_unit_zero (S := S4000x1) hz,
    View.ld_unit_zero (S := S64x128) hz, View.ld_unit_zero (S := S1x128) hz, View.ld_unit_zero (S := S128x64) hz,
    View.ld_unit_zero (S := S1x64) hz, View.ld_unit_zero (S := S128x10) hz, View.ld_unit_zero (S := S1x10) hz]
  refine (pay1_apply _ _ _ _ _ p o).trans ?_
  unfold Cert.SageRow.rowOut
  refine congrArg (fun h => Cert.SageRow.dense (Cert.SageRow.denseRelu h _ _) _ _ o) (funext fun k => ?_)
  exact pay2_apply x2 x1 x0 x3 x5 x4 x6 x7 p k

end Cert.KernelIdeal.RowValue

end
-- ==== Proof.LibHostGather.lean ====
/-
  Two gathers through a column of start indices, read at an index.

  `table[idx]` for `table : [B, F]` and an integer vector `idx : [N]` is printed as a gather whose start indices are
  the column `[N, 1]`: the operand's first axis is collapsed (slice size one) and driven by the start index, the second
  is an offset axis taken whole. Result entry `(r, f)` is therefore `table` at row `idx r` — read as a signed integer
  and clamped into `[0, B − 1]`, as every start index of a gather is — and column `f`. The rank-one form, `v[idx]`
  for `v : [B]`, is the same without the offset axis.
-/
import Idealize.ShloMosaic.PureOps
import Idealize.ShloMosaic.Lib.ValueIdx

noncomputable section

open Idealize.ShloMosaic Idealize.ShloMosaic.ValueIdx

namespace Cert.HostInt

variable {α : Type}

/-- The dimension numbers of `table[idx]`: operand `[B, F]`, start indices `[N, 1]`, result `[N, F]`. -/
abbrev rowGatherDims (B F N : Nat)
    (wf : GatherDims.WF ⟨2, ![B, F]⟩ ⟨2, ![N, 1]⟩ ⟨2, ![N, F]⟩ [1] [0] [] [0] [] 1 ![1, F]) :
    GatherDims ⟨2, ![B, F]⟩ ⟨2, ![N, 1]⟩ ⟨2, ![N, F]⟩ where
  offsetDims := [1]
  collapsedSliceDims := [0]
  operandBatchingDims := []
  startIndicesBatchingDims := []
  startIndexMap := [0]
  indexVectorDim := 1
  sliceSizes := ![1, F]
  wf := wf

/-- The start-indices entry that result row `r` reads. -/
abbrev colIdx {N : Nat} (r : Fin N) : (⟨2, ![N, 1]⟩ : Shape).Idx := ix2 r ⟨0, Nat.one_pos⟩

/-- ROWS GATHERED: entry `(r, f)` is the operand at row `idx r`, read signed and clamped into `[0, B − 1]`, column `f`. -/
theorem gather_rows_apply {B F N w : Nat} (hB : 0 < B)
    (wf : GatherDims.WF ⟨2, ![B, F]⟩ ⟨2, ![N, 1]⟩ ⟨2, ![N, F]⟩ [1] [0] [] [0] [] 1 ![1, F])
    (x : (⟨2, ![B, F]⟩ : Shape).Idx → α) (idx : IVec ⟨2, ![N, 1]⟩ w) (r : Fin N) (f : Fin F) :
    Host.gather (rowGatherDims B F N wf) x idx (ix2 r f)
      = x (ix2 ⟨min (idx (colIdx r)).toInt.toNat (B - 1), by omega⟩ f) := by
  unfold Host.gather
  congr 1
  funext a
  refine Fin.ext ?_
  match a with
  | ⟨0, _⟩ =>
    show (rowGatherDims B F N wf).start (ix2 r f) idx 0 + (rowGatherDims B F N wf).batchCoord (ix2 r f) 0
      + (rowGatherDims B F N wf).offCoord (ix2 r f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims B F N wf).startIndexMap from List.mem_singleton.mpr rfl)]
    have hsi : (rowGatherDims B F N wf).siIdx (ix2 r f) ⟨List.idxOf (0 : Fin 2) (rowGatherDims B F N wf).startIndexMap,
        List.idxOf_lt_length_iff.2 (List.mem_singleton.mpr rfl)⟩ = colIdx r := by
      funext b; refine Fin.ext ?_
      match b with
      | ⟨0, _⟩ => rfl
      | ⟨1, _⟩ => rfl
    rw [hsi]
    rfl
  | ⟨1, _⟩ =>
    show (rowGatherDims B F N wf).start (ix2 r f) idx 1 + (rowGatherDims B F N wf).batchCoord (ix2 r f) 1
      + (rowGatherDims B F N wf).offCoord (ix2 r f) 1 = f.val
    rw [GatherDims.batchCoord_eq_zero _ _ _ List.not_mem_nil]
    unfold GatherDims.start
    rw [dif_neg (show (1 : Fin 2) ∉ (rowGatherDims B F N wf).startIndexMap from
      fun h => absurd (show (1 : Nat) = 0 from congrArg Fin.val (List.mem_singleton.mp h)) Nat.one_ne_zero)]
    simp only [Nat.add_zero, Nat.zero_add]
    rfl

/-- The dimension numbers of `v[idx]`: operand `[B]`, start indices `[N, 1]`, result `[N]`. -/
abbrev takeColDims (B N : Nat)
    (wf : GatherDims.WF ⟨1, ![B]⟩ ⟨2, ![N, 1]⟩ ⟨1, ![N]⟩ [] [0] [] [0] [] 1 ![1]) :
    GatherDims ⟨1, ![B]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- ENTRIES TAKEN: entry `r` is the operand at `idx r`, read signed and clamped into `[0, B − 1]`. -/
theorem gather_take_col_apply {B N w : Nat} (hB : 0 < B)
    (wf : GatherDims.WF ⟨1, ![B]⟩ ⟨2, ![N, 1]⟩ ⟨1, ![N]⟩ [] [0] [] [0] [] 1 ![1])
    (x : (⟨1, ![B]⟩ : Shape).Idx → α) (idx : IVec ⟨2, ![N, 1]⟩ w) (r : Fin N) :
    Host.gather (takeColDims B N wf) x idx (ix1 r)
      = x (ix1 ⟨min (idx (colIdx r)).toInt.toNat (B - 1), by omega⟩) := by
  unfold Host.gather
  congr 1
  funext a
  obtain rfl : a = 0 := Subsingleton.elim _ _
  refine Fin.ext ?_
  show (takeColDims B N wf).start (ix1 r) idx 0 + (takeColDims B N wf).batchCoord (ix1 r) 0
    + (takeColDims B N wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeColDims B N wf).startIndexMap from List.mem_singleton.mpr rfl)]
  have hsi : (takeColDims B N wf).siIdx (ix1 r) ⟨List.idxOf (0 : Fin 1) (takeColDims B N wf).startIndexMap,
      List.idxOf_lt_length_iff.2 (List.mem_singleton.mpr rfl)⟩ = colIdx r := by
    funext b; refine Fin.ext ?_
    match b with
    | ⟨0, _⟩ => rfl
    | ⟨1, _⟩ => rfl
  rw [hsi]
  rfl

end Cert.HostInt

end
-- ==== Proof.LibHostSegmentSum.lean ====
/-
  `segment_sum` as it is printed, read at an entry of its result at the ideal instance.

  `operand.at[idx].add(updates)` for `operand : [B, F]`, `updates : [N, F]` and an integer vector `idx : [N]` is
  printed as a float scatter-add whose scatter indices are the column `[N, 1]`: update row `r` is one window
  `[1, F]` placed at operand row `idx r`, the start index read as a signed integer and NOT clamped, and dropped
  altogether when that row is outside `[0, B)`. So update entry `(r, f)` lands on operand entry `(idx r, f)` or
  nowhere, and at the ideal instance, where the accumulation is the exact sum, result entry `(b, f)` is the operand's
  entry plus the sum over the rows `r` with `idx r = b` of `updates (r, f)`.
-/
import Idealize.ShloMosaic.PureOps
import Idealize.ShloMosaic.PureOps.Ideal
import Idealize.ShloMosaic.Lib.ValueIdx

noncomputable section

open Idealize.ShloMosaic Idealize.ShloMosaic.ValueIdx

namespace Cert.HostInt

/-- The dimension numbers of `operand.at[idx].add(updates)`: operand `[B, F]`, scatter indices `[N, 1]`, updates `[N, F]`. -/
abbrev segSumDims (B F N : Nat)
    (wf : ScatterDims.WF ⟨2, ![B, F]⟩ ⟨2, ![N, 1]⟩ ⟨2, ![N, F]⟩ [1] [0] [0] 1) :
    ScatterDims ⟨2, ![B, F]⟩ ⟨2, ![N, 1]⟩ ⟨2, ![N, F]⟩ where
  updateWindowDims := [1]
  insertedWindowDims := [0]
  scatterDimsToOperandDims := [0]
  indexVectorDim := 1
  wf := wf

/-- The scatter-indices entry that update row `r` reads. -/
abbrev rowIdx {N : Nat} (r : Fin N) : (⟨2, ![N, 1]⟩ : Shape).Idx := ix2 r ⟨0, Nat.one_pos⟩

section
variable {B F N w : Nat} (wf : ScatterDims.WF ⟨2, ![B, F]⟩ ⟨2, ![N, 1]⟩ ⟨2, ![N, F]⟩ [1] [0] [0] 1)
  (idx : IVec ⟨2, ![N, 1]⟩ w) (r : Fin N) (f : Fin F)

theorem mem_sKept_iff (a : Fin 2) : a ∈ (segSumDims B F N wf).sKept ↔ a ∉ (segSumDims B F N wf).insertedWindowDims := by
  simp [ScatterDims.sKept, Shape.kept, List.mem_filter, List.mem_finRange]

/-- On the row axis the window starts at the row's start index, read signed. -/
theorem start_row : (segSumDims B F N wf).start (ix2 r f) idx 0 = (idx (rowIdx r)).toInt := by
  unfold ScatterDims.start
  rw [dif_pos (show (0 : Fin 2) ∈ (segSumDims B F N wf).scatterDimsToOperandDims from List.mem_singleton.mpr rfl)]
  have hsi : (segSumDims B F N wf).siIdx (ix2 r f)
      ⟨List.idxOf (0 : Fin 2) (segSumDims B F N wf).scatterDimsToOperandDims,
        List.idxOf_lt_length_iff.2 (List.mem_singleton.mpr rfl)⟩ = rowIdx r := by
    funext b; refine Fin.ext ?_
    match b with
    | ⟨0, _⟩ => rfl
    | ⟨1, _⟩ => rfl
  rw [hsi]

/-- On the column axis it starts at zero. -/
theorem start_col : (segSumDims B F N wf).start (ix2 r f) idx 1 = 0 := by
  unfold ScatterDims.start
  rw [dif_neg (show (1 : Fin 2) ∉ (segSumDims B F N wf).scatterDimsToOperandDims from
    fun h => absurd (show (1 : Nat) = 0 from congrArg Fin.val (List.mem_singleton.mp h)) Nat.one_ne_zero)]

/-- The row axis is inserted: no window coordinate on it. -/
theorem window_row : (segSumDims B F N wf).window (ix2 r f) 0 = 0 := by
  unfold ScatterDims.window
  rw [dif_neg (fun h => ((mem_sKept_iff wf 0).mp h) (List.mem_singleton.mpr rfl))]

/-- The column axis carries the update's column. -/
theorem window_col : (segSumDims B F N wf).window (ix2 r f) 1 = f.val := by
  unfold ScatterDims.window
  rw [dif_pos ((mem_sKept_iff wf 1).mpr fun h =>
    absurd (show (1 : Nat) = 0 from congrArg Fin.val (List.mem_singleton.mp h)) Nat.one_ne_zero)]
  rfl

/-- WHERE AN UPDATE LANDS: entry `(r, f)` lands on `(idx r, f)` when `idx r`, read signed, is a row of the operand,
    and is dropped otherwise. -/
theorem resultIdx?_rows :
    (segSumDims B F N wf).resultIdx? (ix2 r f) idx
      = if h : 0 ≤ (idx (rowIdx r)).toInt ∧ (idx (rowIdx r)).toInt < B then
          some (ix2 ⟨(idx (rowIdx r)).toInt.toNat, by omega⟩ f)
        else none := by
  unfold ScatterDims.resultIdx?
  by_cases h : 0 ≤ (idx (rowIdx r)).toInt ∧ (idx (rowIdx r)).toInt < B
  · have hall : ∀ a : Fin 2, 0 ≤ (segSumDims B F N wf).start (ix2 r f) idx a + (segSumDims B F N wf).window (ix2 r f) a
        ∧ (segSumDims B F N wf).start (ix2 r f) idx a + (segSumDims B F N wf).window (ix2 r f) a
          < ((⟨2, ![B, F]⟩ : Shape).size a : Int) := by
      intro a
      match a with
      | ⟨0, _⟩ =>
        show 0 ≤ (segSumDims B F N wf).start (ix2 r f) idx 0 + (segSumDims B F N wf).window (ix2 r f) 0
          ∧ (segSumDims B F N wf).start (ix2 r f) idx 0 + (segSumDims B F N wf).window (ix2 r f) 0 < (B : Int)
        rw [start_row, window_row]
        simpa using h
      | ⟨1, _⟩ =>
        show 0 ≤ (segSumDims B F N wf).start (ix2 r f) idx 1 + (segSumDims B F N wf).window (ix2 r f) 1
          ∧ (segSumDims B F N wf).start (ix2 r f) idx 1 + (segSumDims B F N wf).window (ix2 r f) 1 < (F : Int)
        rw [start_col, window_col]
        have := f.isLt
        omega
    rw [dif_pos hall, dif_pos h]
    refine congrArg some (funext fun a => Fin.ext ?_)
    match a with
    | ⟨0, _⟩ =>
      show ((segSumDims B F N wf).start (ix2 r f) idx 0 + (segSumDims B F N wf).window (ix2 r f) 0).toNat
        = (idx (rowIdx r)).toInt.toNat
      rw [start_row, window_row]
      simp
    | ⟨1, _⟩ =>
      show ((segSumDims B F N wf).start (ix2 r f) idx 1 + (segSumDims B F N wf).window (ix2 r f) 1).toNat = f.val
      rw [start_col, window_col]
      simp
  · rw [dif_neg h, dif_neg]
    intro hall
    have h0 := hall 0
    have h0' : 0 ≤ (segSumDims B F N wf).start (ix2 r f) idx 0 + (segSumDims B F N wf).window (ix2 r f) 0
        ∧ (segSumDims B F N wf).start (ix2 r f) idx 0 + (segSumDims B F N wf).window (ix2 r f) 0 < (B : Int) := h0
    rw [start_row, window_row] at h0'
    exact h (by simpa using h0')

end

/-- Two rank-two indices agree exactly when their coordinates do. -/
theorem ix2_eq_iff {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- THE SEGMENT SUM AT AN ENTRY, at the ideal instance: the operand's entry plus the updates of the rows whose start
    index, read signed, is `b`. -/
theorem scatterAdd_rows_apply {B F N w : Nat} {φ : FTy}
    (wf : ScatterDims.WF ⟨2, ![B, F]⟩ ⟨2, ![N, 1]⟩ ⟨2, ![N, F]⟩ [1] [0] [0] 1)
    (x : FVec Ideal ⟨2, ![B, F]⟩ φ) (idx : IVec ⟨2, ![N, 1]⟩ w) (upd : FVec Ideal ⟨2, ![N, F]⟩ φ)
    (b : Fin B) (f : Fin F) :
    Host.scatterAdd (F := Ideal) (segSumDims B F N wf) x idx upd (ix2 b f)
      = x (ix2 b f) + ∑ r : Fin N, if (idx (rowIdx r)).toInt = (b.val : Int) then upd (ix2 r f) else 0 := by
  show Ideal.hostScatterAdd (segSumDims B F N wf) x idx upd (ix2 b f) = _
  unfold Ideal.hostScatterAdd
  refine congrArg (x (ix2 b f) + ·) ?_
  rw [Finset.sum_filter, sum_idx2]
  refine Finset.sum_congr rfl fun r _ => ?_
  simp only [resultIdx?_rows]
  have hb := b.isLt
  by_cases h : 0 ≤ (idx (rowIdx r)).toInt ∧ (idx (rowIdx r)).toInt < B
  · simp only [dif_pos h, Option.some.injEq, ix2_eq_iff]
    by_cases ht : (idx (rowIdx r)).toInt = (b.val : Int)
    · rw [if_pos ht, Finset.sum_eq_single f]
      · rw [if_pos ⟨Fin.ext (by show (idx (rowIdx r)).toInt.toNat = b.val; omega), rfl⟩]
      · intro f' _ hf'
        rw [if_neg fun hh => hf' hh.2]
      · intro hf
        exact absurd (Finset.mem_univ _) hf
    · rw [if_neg ht]
      refine Finset.sum_eq_zero fun f' _ => ?_
      rw [if_neg]
      intro hh
      have : (idx (rowIdx r)).toInt.toNat = b.val := congrArg Fin.val hh.1
      omega
  · simp only [dif_neg h]
    rw [if_neg (by omega)]
    refine Finset.sum_eq_zero fun f' _ => ?_
    rw [if_neg (by simp)]

end Cert.HostInt

end
-- ==== Proof.LibGatherScatter.lean ====
/-
  Rows gathered through one column of words and scatter-added through another, read at an entry.

  Update row `e` is row `s e` of the table, where `s e` is the gather's word for `e` read signed and clamped into the
  table; it lands on the row named by the scatter's word for `e`, read signed, or nowhere. So entry `(r, k)` of the result
  is the operand's entry plus the sum, over the edges `e` whose scatter word is `r`, of the table's entry `(s e, k)`.
-/
import proofs.«150635_j36893769072799_2_alg».proof.Proof.LibHostGather
import proofs.«150635_j36893769072799_2_alg».proof.Proof.LibHostSegmentSum

noncomputable section

open Idealize.ShloMosaic Idealize.ShloMosaic.ValueIdx

namespace Cert.HostInt

/-- THE AGGREGATION AT AN ENTRY, over any number `B` of rows. -/
theorem scatterAdd_gather_rows_apply {B F N w : Nat} {φ : FTy} (hB : 0 < B)
    (wfg : GatherDims.WF ⟨2, ![B, F]⟩ ⟨2, ![N, 1]⟩ ⟨2, ![N, F]⟩ [1] [0] [] [0] [] 1 ![1, F])
    (wfs : ScatterDims.WF ⟨2, ![B, F]⟩ ⟨2, ![N, 1]⟩ ⟨2, ![N, F]⟩ [1] [0] [0] 1)
    (z x : FVec Ideal ⟨2, ![B, F]⟩ φ) (gi si : IVec ⟨2, ![N, 1]⟩ w) (s : Fin N → Fin B)
    (hs : ∀ e : Fin N, min (gi (colIdx e)).toInt.toNat (B - 1) = (s e).val) (r : Fin B) (k : Fin F) :
    Host.scatterAdd (F := Ideal) (segSumDims B F N wfs) z si (Host.gather (rowGatherDims B F N wfg) x gi) (ix2 r k)
      = z (ix2 r k) + ∑ e : Fin N, if (si (rowIdx e)).toInt = (r.val : Int) then x (ix2 (s e) k) else 0 := by
  rw [scatterAdd_rows_apply]
  refine congrArg (z (ix2 r k) + ·) (Finset.sum_congr rfl fun e _ => ?_)
  rw [gather_rows_apply hB]
  exact if_congr Iff.rfl (congrArg (fun t => x (ix2 t k)) (Fin.ext (hs e))) rfl

end Cert.HostInt

end
-- ==== Proof.LibHostScatterAdd.lean ====
/-
  An accumulating scatter (`.at[idx].add(v)`) as it is printed, read at an entry.

  The printed scatter is a left fold over the update entries in row-major order: an entry whose result index is inside
  the operand replaces the operand's element there by the body applied to it and the update, an entry landing outside
  is dropped. When the body is addition in a commutative monoid the order is immaterial and the fold reads, at every
  entry `i` and for ANY dimension numbers, as the operand's entry plus the sum of the updates whose result index is `i`.
  The rank-one case with a column `[B, 1]` of scatter indices — `zeros(N).at[idx].add(v)` — then has update `j` landing
  at `idx j`, read as a signed integer and not clamped, when that is inside `[0, N)`.
-/
import Idealize.ShloMosaic.PureOps
import Idealize.ShloMosaic.Lib.ValueIdx
import Mathlib.Data.BitVec

noncomputable section

open Idealize.ShloMosaic Idealize.ShloMosaic.ValueIdx

namespace Cert.HostInt

/-- One step of the fold, read at an entry: the entry gains the update exactly when the update lands on it. -/
theorem scatter_step_apply {α : Type} [AddCommMonoid α] {s : Shape} (r : s.Idx → α) (o : Option s.Idx) (v : α) (i : s.Idx) :
    (match o with
      | some i0 => fun i' => if i' = i0 then r i0 + v else r i'
      | none => r) i = r i + if o = some i then v else 0 := by
  cases o with
  | none => simp
  | some i0 =>
    show (if i = i0 then r i0 + v else r i) = r i + if some i0 = some i then v else 0
    by_cases h : i = i0
    · subst h; simp
    · rw [if_neg h, if_neg (fun hh => h (Option.some.inj hh).symm), add_zero]

/-- THE ACCUMULATING SCATTER AT AN ENTRY, for any dimension numbers: the operand's entry plus the updates landing on it. -/
theorem scatter_add_apply {α : Type} [AddCommMonoid α] {s si u : Shape} {w : Nat} (d : ScatterDims s si u)
    (x : s.Idx → α) (idx : IVec si w) (upd : u.Idx → α) (i : s.Idx) :
    Host.scatter d (· + ·) x idx upd i = x i + ∑ j : u.Idx, if d.resultIdx? j idx = some i then upd j else 0 := by
  unfold Host.scatter
  have h : ∀ (l : List (Fin u.numel)) (r : s.Idx → α),
      (l.foldl (fun r n =>
        match d.resultIdx? (u.rowMajor.symm n) idx with
        | some i0 => fun i' => if i' = i0 then r i0 + upd (u.rowMajor.symm n) else r i'
        | none => r) r) i
      = r i + (l.map fun n => if d.resultIdx? (u.rowMajor.symm n) idx = some i then upd (u.rowMajor.symm n) else 0).sum := by
    intro l
    induction l with
    | nil => intro r; simp
    | cons n l ih =>
      intro r
      rw [List.foldl_cons, ih, scatter_step_apply, List.map_cons, List.sum_cons, add_assoc]
  refine (h (List.finRange u.numel) x).trans ?_
  rw [← Fin.sum_univ_def]
  refine congrArg (x i + ·) ?_
  exact Equiv.sum_comp u.rowMajor.symm fun j => if d.resultIdx? j idx = some i then upd j else 0

/-- The dimension numbers of `operand.at[idx].add(v)`: operand `[N]`, scatter indices `[B, 1]`, updates `[B]`. -/
abbrev colScatterDims (N B : Nat) (wf : ScatterDims.WF ⟨1, ![N]⟩ ⟨2, ![B, 1]⟩ ⟨1, ![B]⟩ [] [0] [0] 1) :
    ScatterDims ⟨1, ![N]⟩ ⟨2, ![B, 1]⟩ ⟨1, ![B]⟩ where
  updateWindowDims := []
  insertedWindowDims := [0]
  scatterDimsToOperandDims := [0]
  indexVectorDim := 1
  wf := wf

/-- The scatter-indices entry that update `j` reads. -/
abbrev colEntry {B : Nat} (j : Fin B) : (⟨2, ![B, 1]⟩ : Shape).Idx := ix2 j ⟨0, Nat.one_pos⟩

section
variable {N B w : Nat} (wf : ScatterDims.WF ⟨1, ![N]⟩ ⟨2, ![B, 1]⟩ ⟨1, ![B]⟩ [] [0] [0] 1)
  (idx : IVec ⟨2, ![B, 1]⟩ w) (j : Fin B)

theorem col_start : (colScatterDims N B wf).start (ix1 j) idx 0 = (idx (colEntry j)).toInt := by
  unfold ScatterDims.start
  rw [dif_pos (show (0 : Fin 1) ∈ (colScatterDims N B wf).scatterDimsToOperandDims from List.mem_singleton.mpr rfl)]
  have hsi : (colScatterDims N B wf).siIdx (ix1 j)
      ⟨List.idxOf (0 : Fin 1) (colScatterDims N B wf).scatterDimsToOperandDims,
        List.idxOf_lt_length_iff.2 (List.mem_singleton.mpr rfl)⟩ = colEntry j := by
    funext b; refine Fin.ext ?_
    match b with
    | ⟨0, _⟩ => rfl
    | ⟨1, _⟩ => rfl
  rw [hsi]

theorem col_window : (colScatterDims N B wf).window (ix1 j) 0 = 0 := by
  unfold ScatterDims.window
  rw [dif_neg]
  simp [ScatterDims.sKept, Shape.kept, List.mem_filter, List.mem_finRange]

/-- WHERE UPDATE `j` LANDS: at `idx j`, read signed, when that is an index of the operand; nowhere otherwise. -/
theorem resultIdx?_col :
    (colScatterDims N B wf).resultIdx? (ix1 j) idx
      = if h : 0 ≤ (idx (colEntry j)).toInt ∧ (idx (colEntry j)).toInt < N then
          some (ix1 ⟨(idx (colEntry j)).toInt.toNat, by omega⟩)
        else none := by
  unfold ScatterDims.resultIdx?
  by_cases h : 0 ≤ (idx (colEntry j)).toInt ∧ (idx (colEntry j)).toInt < N
  · have hall : ∀ a : Fin 1, 0 ≤ (colScatterDims N B wf).start (ix1 j) idx a + (colScatterDims N B wf).window (ix1 j) a
        ∧ (colScatterDims N B wf).start (ix1 j) idx a + (colScatterDims N B wf).window (ix1 j) a
          < ((⟨1, ![N]⟩ : Shape).size a : Int) := by
      intro a
      obtain rfl : a = 0 := Subsingleton.elim _ _
      show 0 ≤ (colScatterDims N B wf).start (ix1 j) idx 0 + (colScatterDims N B wf).window (ix1 j) 0
        ∧ (colScatterDims N B wf).start (ix1 j) idx 0 + (colScatterDims N B wf).window (ix1 j) 0 < (N : Int)
      rw [col_start, col_window]
      simpa using h
    rw [dif_pos hall, dif_pos h]
    refine congrArg some (funext fun a => Fin.ext ?_)
    obtain rfl : a = 0 := Subsingleton.elim _ _
    show ((colScatterDims N B wf).start (ix1 j) idx 0 + (colScatterDims N B wf).window (ix1 j) 0).toNat
      = (idx (colEntry j)).toInt.toNat
    rw [col_start, col_window]
    simp
  · rw [dif_neg h, dif_neg]
    intro hall
    have h0 : 0 ≤ (colScatterDims N B wf).start (ix1 j) idx 0 + (colScatterDims N B wf).window (ix1 j) 0
        ∧ (colScatterDims N B wf).start (ix1 j) idx 0 + (colScatterDims N B wf).window (ix1 j) 0 < (N : Int) := hall 0
    rw [col_start, col_window] at h0
    exact h (by simpa using h0)

end

/-- THE RANK-ONE ACCUMULATING SCATTER AT AN ENTRY: the operand's entry plus the updates whose start index, read
    signed, is `i`. -/
theorem scatter_add_col_apply {α : Type} [AddCommMonoid α] {N B w : Nat}
    (wf : ScatterDims.WF ⟨1, ![N]⟩ ⟨2, ![B, 1]⟩ ⟨1, ![B]⟩ [] [0] [0] 1)
    (x : (⟨1, ![N]⟩ : Shape).Idx → α) (idx : IVec ⟨2, ![B, 1]⟩ w) (upd : (⟨1, ![B]⟩ : Shape).Idx → α) (i : Fin N) :
    Host.scatter (colScatterDims N B wf) (· + ·) x idx upd (ix1 i)
      = x (ix1 i) + ∑ j : Fin B, if (idx (colEntry j)).toInt = (i.val : Int) then upd (ix1 j) else 0 := by
  rw [scatter_add_apply]
  refine congrArg (x (ix1 i) + ·) ?_
  have hi := i.isLt
  rw [← Equiv.sum_comp (⟨fun j : Fin B => (ix1 j : (⟨1, ![B]⟩ : Shape).Idx), fun y => y 0, fun _ => rfl,
    fun y => (eq_ix1 y).symm⟩ : Fin B ≃ (⟨1, ![B]⟩ : Shape).Idx)]
  refine Finset.sum_congr rfl fun j _ => ?_
  show (if (colScatterDims N B wf).resultIdx? (ix1 j) idx = some (ix1 i) then upd (ix1 j) else 0) = _
  rw [resultIdx?_col]
  by_cases h : 0 ≤ (idx (colEntry j)).toInt ∧ (idx (colEntry j)).toInt < N
  · rw [dif_pos h]
    by_cases ht : (idx (colEntry j)).toInt = (i.val : Int)
    · rw [if_pos ht, if_pos]
      refine congrArg some (funext fun a => Fin.ext ?_)
      obtain rfl : a = 0 := Subsingleton.elim _ _
      show (idx (colEntry j)).toInt.toNat = i.val
      omega
    · rw [if_neg ht, if_neg]
      intro hh
      have : (idx (colEntry j)).toInt.toNat = i.val := congrArg (fun y : (⟨1, ![N]⟩ : Shape).Idx => (y 0).val) (Option.some.inj hh)
      omega
  · rw [dif_neg h, if_neg (by simp), if_neg (by omega)]

end Cert.HostInt

end
-- ==== Proof.LibIdealEntries.lean ====
/-
  The rank-one accumulating float scatter at the ideal instance, read at an entry.

  `zeros(N).at[idx].add(v)` for a float vector `v : [B]` and a column `[B, 1]` of scatter indices is printed as the
  float scatter-add. At the ideal instance its value at entry `i` is the operand's entry plus the exact sum of the
  updates landing on `i`; update `j` lands at `idx j`, read as a signed integer and not clamped, when that is an index
  of the operand, and is dropped otherwise. So entry `i` is the operand's entry plus the sum of `v j` over the `j` whose
  index word, read signed, is `i` — with `v` all ones, the segment count.
-/
import proofs.«150635_j36893769072799_2_alg».proof.Proof.LibHostScatterAdd
import Idealize.ShloMosaic.PureOps.Ideal

noncomputable section

open Idealize.ShloMosaic Idealize.ShloMosaic.ValueIdx

namespace Cert.HostInt

/-- THE RANK-ONE FLOAT SCATTER-ADD AT AN ENTRY, at the ideal instance: the operand's entry plus the updates whose start
    index, read signed, is `i`. -/
theorem scatterAdd_col_apply {N B w : Nat} {φ : FTy}
    (wf : ScatterDims.WF ⟨1, ![N]⟩ ⟨2, ![B, 1]⟩ ⟨1, ![B]⟩ [] [0] [0] 1)
    (x : FVec Ideal ⟨1, ![N]⟩ φ) (idx : IVec ⟨2, ![B, 1]⟩ w) (upd : FVec Ideal ⟨1, ![B]⟩ φ) (i : Fin N) :
    Host.scatterAdd (F := Ideal) (colScatterDims N B wf) x idx upd (ix1 i)
      = x (ix1 i) + ∑ j : Fin B, if (idx (colEntry j)).toInt = (i.val : Int) then upd (ix1 j) else 0 := by
  show Ideal.hostScatterAdd (colScatterDims N B wf) x idx upd (ix1 i) = _
  unfold Ideal.hostScatterAdd
  refine congrArg (x (ix1 i) + ·) ?_
  rw [Finset.sum_filter]
  have hi := i.isLt
  rw [← Equiv.sum_comp (⟨fun j : Fin B => (ix1 j : (⟨1, ![B]⟩ : Shape).Idx), fun y => y 0, fun _ => rfl,
    fun y => (eq_ix1 y).symm⟩ : Fin B ≃ (⟨1, ![B]⟩ : Shape).Idx)]
  refine Finset.sum_congr rfl fun j _ => ?_
  show (if (colScatterDims N B wf).resultIdx? (ix1 j) idx = some (ix1 i) then upd (ix1 j) else 0) = _
  rw [resultIdx?_col]
  by_cases h : 0 ≤ (idx (colEntry j)).toInt ∧ (idx (colEntry j)).toInt < N
  · rw [dif_pos h]
    by_cases ht : (idx (colEntry j)).toInt = (i.val : Int)
    · rw [if_pos ht, if_pos]
      refine congrArg some (funext fun a => Fin.ext ?_)
      obtain rfl : a = 0 := Subsingleton.elim _ _
      show (idx (colEntry j)).toInt.toNat = i.val
      omega
    · rw [if_neg ht, if_neg]
      intro hh
      have : (idx (colEntry j)).toInt.toNat = i.val :=
        congrArg (fun y : (⟨1, ![N]⟩ : Shape).Idx => (y 0).val) (Option.some.inj hh)
      omega
  · rw [dif_neg h, if_neg (by simp), if_neg (by omega)]

end Cert.HostInt

end
-- ==== Proof.HostAgg.lean ====
/-
  The neighbour aggregation the host computes before the kernel's region, read at an entry and compared with the
  reference's.

  The kernel appends a column of ones to the feature table `x` (a table `[x | 1]` of 65 columns), gathers row
  `src e` of it for every edge `e`, scatter-adds the gathered rows into zeros at row `dst e`, and slices the
  result: columns 0..63 are the aggregated features, column 64 is the in-degree. The reference computes the two
  separately: the aggregation from `x` itself, the degree by scatter-adding a vector of ones. At the ideal instance
  the scatter-add is the exact sum over the edges landing on a row, so entry `(n, k)` of either aggregation is
  `0 + ∑ e, if dst e = n then x (s e, k) else 0` (`s e` the source word read signed and clamped into the table), and
  either degree is `0 + ∑ e, if dst e = n then 1 else 0`: for `k < 64` column `k` of `[x | 1]` is column `k` of
  `x`, and column 64 is the ones. Both programs build the two index columns from the edge list by the same
  operations, so the sums agree term by term. The zero and the one are the words the programs print; they are never
  evaluated.
-/
import proofs.«150635_j36893769072799_2_alg».proof.Proof.Gen.KernelIdeal.Frame
import proofs.«150635_j36893769072799_2_alg».proof.Proof.Gen.ReferenceIdeal.Read
import proofs.«150635_j36893769072799_2_alg».proof.Proof.LibGatherScatter
import proofs.«150635_j36893769072799_2_alg».proof.Proof.LibIdealEntries
import Idealize.ShloMosaic.Lib.StableHlo.Run

noncomputable section

namespace Cert.KernelIdeal.HostAgg

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ)

/-- The row of the table that edge `e` reads: its start word read as a signed integer and clamped into the table. -/
def srcRow (gi : IVec S1600000x1 32) (e : Fin 1600000) : Fin 100000 :=
  ⟨min (gi (Cert.HostInt.colIdx e)).toInt.toNat (100000 - 1), by omega⟩

/-- A scalar word broadcast to any shape holds that word at every index. -/
theorem splat_apply {t : Shape} (h : S_.BroadcastsInDim t (![] : Fin 0 → Fin t.rank)) (w : BitVec 32) (j : t.Idx) :
    broadcastInDim t ![] h (constant (F := Ideal) S_ .f32 w) j = (FloatOps.ofBits .f32 w : Ideal .f32) :=
  broadcastInDim_apply _ h _ j (fun a => a.elim0) (fun a => a.elim0)

/-- The 65-wide aggregation read at a column below 64: the table's own column. -/
theorem agg_apply (Z : FVec Ideal S100000x65 .f32) (X : FVec Ideal S100000x64 .f32) (O : FVec Ideal S100000x1 .f32)
    (gi si : IVec S1600000x1 32) (n : Fin 100000) (k : Fin 64) :
    extractStridedSlice S100000x64 ![0, 0]
        (Host.scatterAdd (F := Ideal) scatter_S100000x65_S1600000x1_S1600000x65_1_0_0_1 Z si
          (Host.gather gather_S100000x65_S1600000x1_S1600000x65_1_0_n_n_0_1_165
            (concatenate S100000x65 1 [⟨S100000x64, X⟩, ⟨S100000x1, O⟩] concatenates_S100000x64_S100000x1_S100000x65_d1) gi))
        slices_S100000x65_S100000x64_0_0 (ix2 n k)
      = Z (ix2 n ⟨k.val, by omega⟩)
        + ∑ e : Fin 1600000, if (si (Cert.HostInt.rowIdx e)).toInt = (n.val : Int) then X (ix2 (srcRow gi e) k) else 0 := by
  rw [extractStridedSlice_apply ![0, 0] _ slices_S100000x65_S100000x64_0_0 (ix2 n k) (ix2 n ⟨k.val, by omega⟩) (fun a => match a with
    | ⟨0, _⟩ => by show n.val = 0 + n.val; omega
    | ⟨1, _⟩ => by show k.val = 0 + k.val; omega)]
  refine (Cert.HostInt.scatterAdd_gather_rows_apply (B := 100000) (F := 65) (N := 1600000) (by decide)
    gather_S100000x65_S1600000x1_S1600000x65_1_0_n_n_0_1_165.wf scatter_S100000x65_S1600000x1_S1600000x65_1_0_0_1.wf
    Z _ gi si (srcRow gi) (fun _ => rfl) n _).trans ?_
  refine congrArg (Z _ + ·) (Finset.sum_congr rfl fun e _ => ?_)
  refine if_congr Iff.rfl ?_ rfl
  exact concatenate_pair_apply_left (t := S100000x65) 1 X O concatenates_S100000x64_S100000x1_S100000x65_d1
    (ix2 (srcRow gi e) ⟨k.val, by omega⟩) rfl (ix2 (srcRow gi e) k) (fun b => match b with | ⟨0, _⟩ => rfl | ⟨1, _⟩ => rfl)

/-- The 65-wide aggregation read at column 64: the appended column. -/
theorem deg_apply (Z : FVec Ideal S100000x65 .f32) (X : FVec Ideal S100000x64 .f32) (O : FVec Ideal S100000x1 .f32)
    (gi si : IVec S1600000x1 32) (n : Fin 100000) :
    extractStridedSlice S100000x1 ![0, 64]
        (Host.scatterAdd (F := Ideal) scatter_S100000x65_S1600000x1_S1600000x65_1_0_0_1 Z si
          (Host.gather gather_S100000x65_S1600000x1_S1600000x65_1_0_n_n_0_1_165
            (concatenate S100000x65 1 [⟨S100000x64, X⟩, ⟨S100000x1, O⟩] concatenates_S100000x64_S100000x1_S100000x65_d1) gi))
        slices_S100000x65_S100000x1_0_64 (ix2 n (⟨0, Nat.one_pos⟩ : Fin 1))
      = Z (ix2 n ⟨64, by omega⟩)
        + ∑ e : Fin 1600000, if (si (Cert.HostInt.rowIdx e)).toInt = (n.val : Int) then O (ix2 (srcRow gi e) ⟨0, Nat.one_pos⟩) else 0 := by
  rw [extractStridedSlice_apply ![0, 64] _ slices_S100000x65_S100000x1_0_64 (ix2 n (⟨0, Nat.one_pos⟩ : Fin 1)) (ix2 n ⟨64, by omega⟩) (fun a => match a with
    | ⟨0, _⟩ => by show n.val = 0 + n.val; omega
    | ⟨1, _⟩ => by show (64 : Nat) = 64 + 0; omega)]
  refine (Cert.HostInt.scatterAdd_gather_rows_apply (B := 100000) (F := 65) (N := 1600000) (by decide)
    gather_S100000x65_S1600000x1_S1600000x65_1_0_n_n_0_1_165.wf scatter_S100000x65_S1600000x1_S1600000x65_1_0_0_1.wf
    Z _ gi si (srcRow gi) (fun _ => rfl) n _).trans ?_
  refine congrArg (Z _ + ·) (Finset.sum_congr rfl fun e _ => ?_)
  refine if_congr Iff.rfl ?_ rfl
  exact concatenate_pair_apply_right (t := S100000x65) 1 X O concatenates_S100000x64_S100000x1_S100000x65_d1
    (ix2 (srcRow gi e) ⟨64, by omega⟩) rfl rfl (ix2 (srcRow gi e) ⟨0, Nat.one_pos⟩)
    (fun b => match b with | ⟨0, _⟩ => fun _ => rfl | ⟨1, _⟩ => fun hb => absurd rfl hb) rfl

/-- The 65-wide aggregation the host computes before the region, as a term of the two arguments: zeros, scatter-added
    at the destination column with the rows of `[x | 1]` gathered at the source column. -/
def wide (X : FVec Ideal S100000x64 .f32) (EI : IVec S2x1600000 32) : FVec Ideal S100000x65 .f32 :=
  Host.scatterAdd (F := Ideal) scatter_S100000x65_S1600000x1_S1600000x65_1_0_0_1
    (broadcastInDim S100000x65 ![] bcast_S_S100000x65 (constant (F := Ideal) S_ .f32 0x00000000#32))
    (Cert.ReferenceIdeal.Read.val_main_v12 (F := Ideal) EI)
    (Host.gather gather_S100000x65_S1600000x1_S1600000x65_1_0_n_n_0_1_165
      (concatenate S100000x65 1 [⟨S100000x64, X⟩,
        ⟨S100000x1, broadcastInDim S100000x1 ![] bcast_S_S100000x1 (constant (F := Ideal) S_ .f32 0x3F800000#32)⟩]
        concatenates_S100000x64_S100000x1_S100000x65_d1)
      (Cert.ReferenceIdeal.Read.val_main_v9 (F := Ideal) EI))

set_option maxHeartbeats 2000000 in
/-- What the region finds in the aggregation buffer: columns 0..63 of the wide aggregation. -/
theorem V16_eq (c : Dev nD) :
    (V m c main_v16 : S100000x64.Idx → EReal)
      = extractStridedSlice S100000x64 ![0, 0]
          (wide (m ((c : Thread nD τ).loc main_arg0) : S100000x64.Idx → EReal) (m ((c : Thread nD τ).loc main_arg1) : S2x1600000.Idx → BitVec 32))
          slices_S100000x65_S100000x64_0_0 := by
  dsimp only [Gen.V, Gen.hostOps0]
  after_results
  rfl

set_option maxHeartbeats 2000000 in
/-- What the region finds in the degree buffer: column 64 of the wide aggregation. -/
theorem V17_eq (c : Dev nD) :
    (V m c main_v17 : S100000x1.Idx → EReal)
      = extractStridedSlice S100000x1 ![0, 64]
          (wide (m ((c : Thread nD τ).loc main_arg0) : S100000x64.Idx → EReal) (m ((c : Thread nD τ).loc main_arg1) : S2x1600000.Idx → BitVec 32))
          slices_S100000x65_S100000x1_0_64 := by
  dsimp only [Gen.V, Gen.hostOps0]
  after_results
  rfl

/-- The reference's aggregation at an entry. -/
theorem ref_agg_apply (X : FVec Ideal S100000x64 .f32) (EI : IVec S2x1600000 32) (n : Fin 100000) (k : Fin 64) :
    Cert.ReferenceIdeal.Read.val_main_v13 (F := Ideal) X EI (ix2 n k)
      = (FloatOps.ofBits .f32 0x00000000#32 : Ideal .f32)
        + ∑ e : Fin 1600000, if ((Cert.ReferenceIdeal.Read.val_main_v12 (F := Ideal) EI) (Cert.HostInt.rowIdx e)).toInt = (n.val : Int)
            then X (ix2 (srcRow (Cert.ReferenceIdeal.Read.val_main_v9 (F := Ideal) EI) e) k) else 0 := by
  unfold Cert.ReferenceIdeal.Read.val_main_v13 Cert.ReferenceIdeal.Read.val_main_v10
  refine (Cert.HostInt.scatterAdd_gather_rows_apply (B := 100000) (F := 64) (N := 1600000) (by decide)
    Cert.ReferenceIdeal.gather_S100000x64_S1600000x1_S1600000x64_1_0_n_n_0_1_164.wf
    Cert.ReferenceIdeal.scatter_S100000x64_S1600000x1_S1600000x64_1_0_0_1.wf
    _ X _ _ (srcRow (Cert.ReferenceIdeal.Read.val_main_v9 (F := Ideal) EI)) (fun _ => rfl) n k).trans ?_
  rw [Cert.ReferenceIdeal.Read.val_main_v11_apply]
  rfl

/-- The reference's degree at an entry. -/
theorem ref_deg_apply (EI : IVec S2x1600000 32) (n : Fin 100000) :
    Cert.ReferenceIdeal.Read.val_main_v17 (F := Ideal) EI (ix1 n)
      = (FloatOps.ofBits .f32 0x00000000#32 : Ideal .f32)
        + ∑ e : Fin 1600000, if ((Cert.ReferenceIdeal.Read.val_main_v12 (F := Ideal) EI) (Cert.HostInt.rowIdx e)).toInt = (n.val : Int)
            then (FloatOps.ofBits .f32 0x3F800000#32 : Ideal .f32) else 0 := by
  unfold Cert.ReferenceIdeal.Read.val_main_v17
  refine (Cert.HostInt.scatterAdd_col_apply
    Cert.ReferenceIdeal.scatter_S100000_S1600000x1_S1600000_n_0_0_1.wf _ _ _ n).trans ?_
  rw [Cert.ReferenceIdeal.Read.val_main_v15_apply]
  refine congrArg₂ (· + ·) rfl (Finset.sum_congr rfl fun e _ => ?_)
  rw [Cert.ReferenceIdeal.Read.val_main_v14_apply]
  rfl

/-- the aggregated rows as the region finds them are the reference's aggregation of the same arguments -/
theorem V_agg (c : Dev nD) (n : Fin 100000) (k : Fin 64) :
    (V m c main_v16 : S100000x64.Idx → EReal) (ix2 n k)
      = Cert.ReferenceIdeal.Read.val_main_v13 (F := Ideal) (m ((c : Thread nD τ).loc main_arg0)) (m ((c : Thread nD τ).loc main_arg1)) (ix2 n k) := by
  refine (congrFun (V16_eq m c) (ix2 n k)).trans ?_
  unfold wide
  rw [agg_apply, ref_agg_apply, splat_apply]

/-- the degree column as the region finds it is the reference's degree vector -/
theorem V_deg (c : Dev nD) (n : Fin 100000) :
    (V m c main_v17 : S100000x1.Idx → EReal) (ix2 n (0 : Fin 1))
      = Cert.ReferenceIdeal.Read.val_main_v17 (F := Ideal) (m ((c : Thread nD τ).loc main_arg1)) (ix1 n) := by
  refine (congrFun (V17_eq m c) (ix2 n (0 : Fin 1))).trans ?_
  unfold wide
  refine (deg_apply _ _ _ _ _ n).trans ?_
  rw [ref_deg_apply, splat_apply]
  refine congrArg₂ (· + ·) rfl (Finset.sum_congr rfl fun e _ => ?_)
  rw [splat_apply]

end Cert.KernelIdeal.HostAgg

end
-- ==== Proof.HostBias.lean ====
/-
  The four bias vectors as the kernel's region finds them.

  Before the region the program views each bias vector `[b]` as a one-row matrix `[1, b]`. A row-major view keeps every
  element's position, so entry `(0, j)` of the row is entry `j` of the vector.
-/
import proofs.«150635_j36893769072799_2_alg».proof.Proof.Gen.KernelIdeal.Frame
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx

namespace Cert.KernelIdeal.HostBias

open Cert.KernelIdeal Cert.KernelIdeal.Gen

variable (m : (ℓ : Loc nD τ sig) → Buf (Elt Ideal) ℓ)

set_option maxHeartbeats 2000000 in
/-- The bias `b_l` as the region finds it: the vector viewed as one row of 128. -/
theorem V_main_v18_eq (c : Dev nD) :
    (V m c main_v18 : S1x128.Idx → EReal)
      = shapeCast S1x128 (m ((c : Thread nD τ).loc main_arg3) : S128.Idx → EReal) shapeCasts_S128_S1x128 := by
  dsimp only [Gen.V, Gen.hostOps0]
  after_results
  rfl

/-- Read at an entry: the row's entry `j` is the vector's entry `j`. -/
theorem V_main_v18_apply (c : Dev nD) (j : Fin 128) :
    (V m c main_v18 : S1x128.Idx → EReal) (ix2 (0 : Fin 1) j)
      = (m ((c : Thread nD τ).loc main_arg3) : S128.Idx → EReal) (ix1 j) := by
  rw [V_main_v18_eq]
  exact shapeCast_a_1a_apply _ _ _ _

set_option maxHeartbeats 2000000 in
/-- The bias `b1` as the region finds it: the vector viewed as one row of 64. -/
theorem V_main_v19_eq (c : Dev nD) :
    (V m c main_v19 : S1x64.Idx → EReal)
      = shapeCast S1x64 (m ((c : Thread nD τ).loc main_arg6) : S64.Idx → EReal) shapeCasts_S64_S1x64 := by
  dsimp only [Gen.V, Gen.hostOps0]
  after_results
  rfl

/-- Read at an entry: the row's entry `j` is the vector's entry `j`. -/
theorem V_main_v19_apply (c : Dev nD) (j : Fin 64) :
    (V m c main_v19 : S1x64.Idx → EReal) (ix2 (0 : Fin 1) j)
      = (m ((c : Thread nD τ).loc main_arg6) : S64.Idx → EReal) (ix1 j) := by
  rw [V_main_v19_eq]
  exact shapeCast_a_1a_apply _ _ _ _

set_option maxHeartbeats 2000000 in
/-- The bias `b2` as the region finds it: the vector viewed as one row of 128. -/
theorem V_main_v20_eq (c : Dev nD) :
    (V m c main_v20 : S1x128.Idx → EReal)
      = shapeCast S1x128 (m ((c : Thread nD τ).loc main_arg8) : S128.Idx → EReal) shapeCasts_S128_S1x128 := by
  dsimp only [Gen.V, Gen.hostOps0]
  after_results
  rfl

/-- Read at an entry: the row's entry `j` is the vector's entry `j`. -/
theorem V_main_v20_apply (c : Dev nD) (j : Fin 128) :
    (V m c main_v20 : S1x128.Idx → EReal) (ix2 (0 : Fin 1) j)
      = (m ((c : Thread nD τ).loc main_arg8) : S128.Idx → EReal) (ix1 j) := by
  rw [V_main_v20_eq]
  exact shapeCast_a_1a_apply _ _ _ _

set_option maxHeartbeats 2000000 in
/-- The bias `b3` as the region finds it: the vector viewed as one row of 10. -/
theorem V_main_v21_eq (c : Dev nD) :
    (V m c main_v21 : S1x10.Idx → EReal)
      = shapeCast S1x10 (m ((c : Thread nD τ).loc main_arg10) : S10.Idx → EReal) shapeCasts_S10_S1x10 := by
  dsimp only [Gen.V, Gen.hostOps0]
  after_results
  rfl

/-- Read at an entry: the row's entry `j` is the vector's entry `j`. -/
theorem V_main_v21_apply (c : Dev nD) (j : Fin 10) :
    (V m c main_v21 : S1x10.Idx → EReal) (ix2 (0 : Fin 1) j)
      = (m ((c : Thread nD τ).loc main_arg10) : S10.Idx → EReal) (ix1 j) := by
  rw [V_main_v21_eq]
  exact shapeCast_a_1a_apply _ _ _ _

end Cert.KernelIdeal.HostBias

end
-- ==== Proof.Blocks.lean ====
/-
  From the blocks to the whole result array.

  The grid has 25 points; point `t` stages rows `4000 t … 4000 t + 3999` of the node features, of the aggregated rows
  and of the degree column, stages every weight matrix and bias row whole, and writes back rows `4000 t … 4000 t + 3999`
  of the result. The body is row-wise, so what point `t` writes at `(p, o)` is the row function of node `4000 t + p`'s
  own rows — which is what the reference's result holds at `(4000 t + p, o)`. The 25 blocks cover the array, so the
  result array ends holding the reference's result of the same arguments.
-/
import proofs.«150635_j36893769072799_2_alg».proof.Proof.Gen.KernelIdeal.Value
import proofs.«150635_j36893769072799_2_alg».proof.Proof.RefIsSpec
import proofs.«150635_j36893769072799_2_alg».proof.Proof.KernelRow
import proofs.«150635_j36893769072799_2_alg».proof.Proof.HostAgg
import proofs.«150635_j36893769072799_2_alg».proof.Proof.HostBias
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Value

variable (m : (ℓ : Loc nD τ sig) → Buf (Elt Ideal) ℓ) (ρ : Dev nD → PrngReg)

/-- The printed index maps over the 25 grid points: the three row windows and the output move to block `t` of the
    rows. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_12.index t (0 : Fin 2) = t.val ∧ win0_12.index t (1 : Fin 2) = 0
    ∧ t.val < 25 :=
  (by decide +kernel : ∀ t : Fin grid0.N, _)

/-- Every weight and bias window stays at block (0, 0). -/
theorem idx_facts' : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-! ## A window's block read at an entry, for any contents of its array -/

/-- Block `t` of the node features is rows `4000 t …` of the array. -/
theorem read_rows0 (c : Dev nD) (A : Buf (Elt Ideal) ((c : Thread nD τ).loc main_arg0)) (t : Fin cfg0.N)
    (p : Fin 4000) (k : Fin 64) (n : Fin 100000) (hn : n.val = 4000 * t.val + p.val) :
    (((cfg0.win 0).blk t).view.read (Elt Ideal) A : Vec Ideal S4000x64 .f32) (ix2 p k)
      = (A : S100000x64.Idx → EReal) (ix2 n k) := by
  obtain ⟨e0, e1, e2, e3, e4, e5, e6, e7, -⟩ := idx_facts t
  rw [View.read_apply]
  refine congrArg (A : S100000x64.Idx → EReal) ?_
  funext a
  apply Fin.ext
  match a with
  | ⟨0, _⟩ => show win0_0.index t 0 * 4000 + 1 * p.val = n.val; omega
  | ⟨1, _⟩ => show win0_0.index t 1 * 64 + 1 * k.val = k.val; omega

/-- Block `t` of the aggregated rows is rows `4000 t …` of the array. -/
theorem read_rows1 (c : Dev nD) (A : Buf (Elt Ideal) ((c : Thread nD τ).loc main_v16)) (t : Fin cfg0.N)
    (p : Fin 4000) (k : Fin 64) (n : Fin 100000) (hn : n.val = 4000 * t.val + p.val) :
    (((cfg0.win 1).blk t).view.read (Elt Ideal) A : Vec Ideal S4000x64 .f32) (ix2 p k)
      = (A : S100000x64.Idx → EReal) (ix2 n k) := by
  obtain ⟨e0, e1, e2, e3, e4, e5, e6, e7, -⟩ := idx_facts t
  rw [View.read_apply]
  refine congrArg (A : S100000x64.Idx → EReal) ?_
  funext a
  apply Fin.ext
  match a with
  | ⟨0, _⟩ => show win0_1.index t 0 * 4000 + 1 * p.val = n.val; omega
  | ⟨1, _⟩ => show win0_1.index t 1 * 64 + 1 * k.val = k.val; omega

/-- Block `t` of the degree column is rows `4000 t …` of the array. -/
theorem read_rows2 (c : Dev nD) (A : Buf (Elt Ideal) ((c : Thread nD τ).loc main_v17)) (t : Fin cfg0.N)
    (p : Fin 4000) (k : Fin 1) (n : Fin 100000) (hn : n.val = 4000 * t.val + p.val) :
    (((cfg0.win 2).blk t).view.read (Elt Ideal) A : Vec Ideal S4000x1 .f32) (ix2 p k)
      = (A : S100000x1.Idx → EReal) (ix2 n k) := by
  obtain ⟨e0, e1, e2, e3, e4, e5, e6, e7, -⟩ := idx_facts t
  rw [View.read_apply]
  refine congrArg (A : S100000x1.Idx → EReal) ?_
  funext a
  apply Fin.ext
  match a with
  | ⟨0, _⟩ => show win0_2.index t 0 * 4000 + 1 * p.val = n.val; omega
  | ⟨1, _⟩ => show win0_2.index t 1 * 1 + 1 * k.val = k.val; omega

/-- The weights `W_l` are staged whole. -/
theorem read_whole3 (c : Dev nD) (A : Buf (Elt Ideal) ((c : Thread nD τ).loc main_arg2)) (t : Fin cfg0.N)
    (i : Fin 64) (j : Fin 128) :
    (((cfg0.win 3).blk t).view.read (Elt Ideal) A : Vec Ideal S64x128 .f32) (ix2 i j)
      = (A : S64x128.Idx → EReal) (ix2 i j) := by
  obtain ⟨a3, b3, a4, b4, a5, b5, a6, b6, a7, b7, a8, b8, a9, b9, a10, b10, a11, b11⟩ := idx_facts' t
  rw [View.read_apply]
  refine congrArg (A : S64x128.Idx → EReal) ?_
  funext a
  apply Fin.ext
  match a with
  | ⟨0, _⟩ => show win0_3.index t 0 * 64 + 1 * i.val = i.val; omega
  | ⟨1, _⟩ => show win0_3.index t 1 * 128 + 1 * j.val = j.val; omega

/-- The bias row `b_l` is staged whole. -/
theorem read_whole4 (c : Dev nD) (A : Buf (Elt Ideal) ((c : Thread nD τ).loc main_v18)) (t : Fin cfg0.N)
    (i : Fin 1) (j : Fin 128) :
    (((cfg0.win 4).blk t).view.read (Elt Ideal) A : Vec Ideal S1x128 .f32) (ix2 i j)
      = (A : S1x128.Idx → EReal) (ix2 i j) := by
  obtain ⟨a3, b3, a4, b4, a5, b5, a6, b6, a7, b7, a8, b8, a9, b9, a10, b10, a11, b11⟩ := idx_facts' t
  rw [View.read_apply]
  refine congrArg (A : S1x128.Idx → EReal) ?_
  funext a
  apply Fin.ext
  match a with
  | ⟨0, _⟩ => show win0_4.index t 0 * 1 + 1 * i.val = i.val; omega
  | ⟨1, _⟩ => show win0_4.index t 1 * 128 + 1 * j.val = j.val; omega

/-- The weights `W_r` are staged whole. -/
theorem read_whole5 (c : Dev nD) (A : Buf (Elt Ideal) ((c : Thread nD τ).loc main_arg4)) (t : Fin cfg0.N)
    (i : Fin 64) (j : Fin 128) :
    (((cfg0.win 5).blk t).view.read (Elt Ideal) A : Vec Ideal S64x128 .f32) (ix2 i j)
      = (A : S64x128.Idx → EReal) (ix2 i j) := by
  obtain ⟨a3, b3, a4, b4, a5, b5, a6, b6, a7, b7, a8, b8, a9, b9, a10, b10, a11, b11⟩ := idx_facts' t
  rw [View.read_apply]
  refine congrArg (A : S64x128.Idx → EReal) ?_
  funext a
  apply Fin.ext
  match a with
  | ⟨0, _⟩ => show win0_5.index t 0 * 64 + 1 * i.val = i.val; omega
  | ⟨1, _⟩ => show win0_5.index t 1 * 128 + 1 * j.val = j.val; omega

/-- The weights `W1` are staged whole. -/
theorem read_whole6 (c : Dev nD) (A : Buf (Elt Ideal) ((c : Thread nD τ).loc main_arg5)) (t : Fin cfg0.N)
    (i : Fin 128) (j : Fin 64) :
    (((cfg0.win 6).blk t).view.read (Elt Ideal) A : Vec Ideal S128x64 .f32) (ix2 i j)
      = (A : S128x64.Idx → EReal) (ix2 i j) := by
  obtain ⟨a3, b3, a4, b4, a5, b5, a6, b6, a7, b7, a8, b8, a9, b9, a10, b10, a11, b11⟩ := idx_facts' t
  rw [View.read_apply]
  refine congrArg (A : S128x64.Idx → EReal) ?_
  funext a
  apply Fin.ext
  match a with
  | ⟨0, _⟩ => show win0_6.index t 0 * 128 + 1 * i.val = i.val; omega
  | ⟨1, _⟩ => show win0_6.index t 1 * 64 + 1 * j.val = j.val; omega

/-- The bias row `b1` is staged whole. -/
theorem read_whole7 (c : Dev nD) (A : Buf (Elt Ideal) ((c : Thread nD τ).loc main_v19)) (t : Fin cfg0.N)
    (i : Fin 1) (j : Fin 64) :
    (((cfg0.win 7).blk t).view.read (Elt Ideal) A : Vec Ideal S1x64 .f32) (ix2 i j)
      = (A : S1x64.Idx → EReal) (ix2 i j) := by
  obtain ⟨a3, b3, a4, b4, a5, b5, a6, b6, a7, b7, a8, b8, a9, b9, a10, b10, a11, b11⟩ := idx_facts' t
  rw [View.read_apply]
  refine congrArg (A : S1x64.Idx → EReal) ?_
  funext a
  apply Fin.ext
  match a with
  | ⟨0, _⟩ => show win0_7.index t 0 * 1 + 1 * i.val = i.val; omega
  | ⟨1, _⟩ => show win0_7.index t 1 * 64 + 1 * j.val = j.val; omega

/-- The weights `W2` are staged whole. -/
theorem read_whole8 (c : Dev nD) (A : Buf (Elt Ideal) ((c : Thread nD τ).loc main_arg7)) (t : Fin cfg0.N)
    (i : Fin 64) (j : Fin 128) :
    (((cfg0.win 8).blk t).view.read (Elt Ideal) A : Vec Ideal S64x128 .f32) (ix2 i j)
      = (A : S64x128.Idx → EReal) (ix2 i j) := by
  obtain ⟨a3, b3, a4, b4, a5, b5, a6, b6, a7, b7, a8, b8, a9, b9, a10, b10, a11, b11⟩ := idx_facts' t
  rw [View.read_apply]
  refine congrArg (A : S64x128.Idx → EReal) ?_
  funext a
  apply Fin.ext
  match a with
  | ⟨0, _⟩ => show win0_8.index t 0 * 64 + 1 * i.val = i.val; omega
  | ⟨1, _⟩ => show win0_8.index t 1 * 128 + 1 * j.val = j.val; omega

/-- The bias row `b2` is staged whole. -/
theorem read_whole9 (c : Dev nD) (A : Buf (Elt Ideal) ((c : Thread nD τ).loc main_v20)) (t : Fin cfg0.N)
    (i : Fin 1) (j : Fin 128) :
    (((cfg0.win 9).blk t).view.read (Elt Ideal) A : Vec Ideal S1x128 .f32) (ix2 i j)
      = (A : S1x128.Idx → EReal) (ix2 i j) := by
  obtain ⟨a3, b3, a4, b4, a5, b5, a6, b6, a7, b7, a8, b8, a9, b9, a10, b10, a11, b11⟩ := idx_facts' t
  rw [View.read_apply]
  refine congrArg (A : S1x128.Idx → EReal) ?_
  funext a
  apply Fin.ext
  match a with
  | ⟨0, _⟩ => show win0_9.index t 0 * 1 + 1 * i.val = i.val; omega
  | ⟨1, _⟩ => show win0_9.index t 1 * 128 + 1 * j.val = j.val; omega

/-- The weights `W3` are staged whole. -/
theorem read_whole10 (c : Dev nD) (A : Buf (Elt Ideal) ((c : Thread nD τ).loc main_arg9)) (t : Fin cfg0.N)
    (i : Fin 128) (j : Fin 10) :
    (((cfg0.win 10).blk t).view.read (Elt Ideal) A : Vec Ideal S128x10 .f32) (ix2 i j)
      = (A : S128x10.Idx → EReal) (ix2 i j) := by
  obtain ⟨a3, b3, a4, b4, a5, b5, a6, b6, a7, b7, a8, b8, a9, b9, a10, b10, a11, b11⟩ := idx_facts' t
  rw [View.read_apply]
  refine congrArg (A : S128x10.Idx → EReal) ?_
  funext a
  apply Fin.ext
  match a with
  | ⟨0, _⟩ => show win0_10.index t 0 * 128 + 1 * i.val = i.val; omega
  | ⟨1, _⟩ => show win0_10.index t 1 * 10 + 1 * j.val = j.val; omega

/-- The bias row `b3` is staged whole. -/
theorem read_whole11 (c : Dev nD) (A : Buf (Elt Ideal) ((c : Thread nD τ).loc main_v21)) (t : Fin cfg0.N)
    (i : Fin 1) (j : Fin 10) :
    (((cfg0.win 11).blk t).view.read (Elt Ideal) A : Vec Ideal S1x10 .f32) (ix2 i j)
      = (A : S1x10.Idx → EReal) (ix2 i j) := by
  obtain ⟨a3, b3, a4, b4, a5, b5, a6, b6, a7, b7, a8, b8, a9, b9, a10, b10, a11, b11⟩ := idx_facts' t
  rw [View.read_apply]
  refine congrArg (A : S1x10.Idx → EReal) ?_
  funext a
  apply Fin.ext
  match a with
  | ⟨0, _⟩ => show win0_11.index t 0 * 1 + 1 * i.val = i.val; omega
  | ⟨1, _⟩ => show win0_11.index t 1 * 10 + 1 * j.val = j.val; omega

/-! ## The result array -/

/-- Equal arguments, equal logits. -/
theorem rowOut_congr {x x' a a' : Fin 64 → EReal} {d d' : EReal}
    {Wl Wl' : Fin 64 → Fin 128 → EReal} {bl bl' : Fin 128 → EReal} {Wr Wr' : Fin 64 → Fin 128 → EReal}
    {W1 W1' : Fin 128 → Fin 64 → EReal} {b1 b1' : Fin 64 → EReal}
    {W2 W2' : Fin 64 → Fin 128 → EReal} {b2 b2' : Fin 128 → EReal}
    {W3 W3' : Fin 128 → Fin 10 → EReal} {b3 b3' : Fin 10 → EReal}
    (hx : x = x') (ha : a = a') (hd : d = d') (hWl : Wl = Wl') (hbl : bl = bl') (hWr : Wr = Wr')
    (hW1 : W1 = W1') (hb1 : b1 = b1') (hW2 : W2 = W2') (hb2 : b2 = b2') (hW3 : W3 = W3') (hb3 : b3 = b3')
    (o : Fin 10) :
    Cert.SageRow.rowOut x a d Wl bl Wr W1 b1 W2 b2 W3 b3 o
      = Cert.SageRow.rowOut x' a' d' Wl' bl' Wr' W1' b1' W2' b2' W3' b3' o := by
  subst hx ha hd hWl hbl hWr hW1 hb1 hW2 hb2 hW3 hb3
  rfl

/-- An array `Gv` over the result's index space holds, at every node `n`, the row function of node `n`'s feature row,
    of its aggregated row and of its degree (the last two as the reference's aggregation stages of the launch
    arguments), with the launch weights and biases. -/
def IsResult (c : Dev nD) (Gv : S100000x10.Idx → EReal) : Prop :=
  ∀ (n : Fin 100000) (o : Fin 10), Gv (ix2 n o)
    = Cert.SageRow.rowOut (fun k => ((m ((c : Thread nD τ).loc main_arg0)) : S100000x64.Idx → EReal) (ix2 n k))
        (fun k => Cert.ReferenceIdeal.Read.val_main_v13 (F := Ideal) (m ((c : Thread nD τ).loc main_arg0)) (m ((c : Thread nD τ).loc main_arg1)) (ix2 n k))
        (Cert.ReferenceIdeal.Read.val_main_v17 (F := Ideal) (m ((c : Thread nD τ).loc main_arg1)) (ix1 n))
        (fun k j => ((m ((c : Thread nD τ).loc main_arg2)) : S64x128.Idx → EReal) (ix2 k j)) (fun j => ((m ((c : Thread nD τ).loc main_arg3)) : S128.Idx → EReal) (ix1 j))
        (fun k j => ((m ((c : Thread nD τ).loc main_arg4)) : S64x128.Idx → EReal) (ix2 k j))
        (fun j i => ((m ((c : Thread nD τ).loc main_arg5)) : S128x64.Idx → EReal) (ix2 j i)) (fun i => ((m ((c : Thread nD τ).loc main_arg6)) : S64.Idx → EReal) (ix1 i))
        (fun i j => ((m ((c : Thread nD τ).loc main_arg7)) : S64x128.Idx → EReal) (ix2 i j)) (fun j => ((m ((c : Thread nD τ).loc main_arg8)) : S128.Idx → EReal) (ix1 j))
        (fun j o' => ((m ((c : Thread nD τ).loc main_arg9)) : S128x10.Idx → EReal) (ix2 j o')) (fun o' => ((m ((c : Thread nD τ).loc main_arg10)) : S10.Idx → EReal) (ix1 o')) o

/-- WHAT POINT `t` WRITES BACK is block `t` of any such array: at `(p, o)` both are the row function of node
    `4000 t + p`. -/
theorem flushed_eq (c : Dev nD) (Gv : S100000x10.Idx → EReal) (hG : IsResult m c Gv) (t : Fin cfg0.N) :
    (dats m 0 c).flushed 12 t = ((cfg0.win 12).blk t).view.read (Elt Ideal) Gv := by
  rw [flushed12]
  generalize hO : out0_12 (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) = O
  funext y
  obtain ⟨p, o, rfl⟩ : ∃ (p : Fin 4000) (o : Fin 10), y = ix2 p o := ⟨y 0, y 1, eq_ix2 y⟩
  obtain ⟨e0, e1, e2, e3, e4, e5, e6, e7, ht⟩ := idx_facts t
  obtain ⟨n, hn⟩ : ∃ n : Fin 100000, n.val = 4000 * t.val + p.val :=
    ⟨⟨4000 * t.val + p.val, by have := p.isLt; omega⟩, rfl⟩
  have hemb : ((cfg0.win 12).blk t).view.emb (ix2 p o) = (ix2 n o : S100000x10.Idx) := by
    funext a
    apply Fin.ext
    match a with
    | ⟨0, _⟩ => show win0_12.index t 0 * 4000 + 1 * p.val = n.val; omega
    | ⟨1, _⟩ => show win0_12.index t 1 * 10 + 1 * o.val = o.val; omega
  rw [View.read_apply, hemb]
  show O (ix2 p o) = Gv (ix2 n o)
  rw [hG n o, ← hO]
  refine (Cert.KernelIdeal.RowValue.out_row (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) p o).trans ?_
  refine rowOut_congr ?_ ?_ ?_ ?_ ?_ ?_ ?_ ?_ ?_ ?_ ?_ ?_ o
  · exact funext fun k => (read_rows0 c (V m c main_arg0) t p k n hn).trans (congrFun (V_main_arg0 m c) (ix2 n k))
  · exact funext fun k => (read_rows1 c (V m c main_v16) t p k n hn).trans (Cert.KernelIdeal.HostAgg.V_agg m c n k)
  · exact (read_rows2 c (V m c main_v17) t p (0 : Fin 1) n hn).trans (Cert.KernelIdeal.HostAgg.V_deg m c n)
  · exact funext fun k => funext fun j => (read_whole3 c (V m c main_arg2) t k j).trans (congrFun (V_main_arg2 m c) (ix2 k j))
  · exact funext fun j => (read_whole4 c (V m c main_v18) t (0 : Fin 1) j).trans (Cert.KernelIdeal.HostBias.V_main_v18_apply m c j)
  · exact funext fun k => funext fun j => (read_whole5 c (V m c main_arg4) t k j).trans (congrFun (V_main_arg4 m c) (ix2 k j))
  · exact funext fun j => funext fun i => (read_whole6 c (V m c main_arg5) t j i).trans (congrFun (V_main_arg5 m c) (ix2 j i))
  · exact funext fun i => (read_whole7 c (V m c main_v19) t (0 : Fin 1) i).trans (Cert.KernelIdeal.HostBias.V_main_v19_apply m c i)
  · exact funext fun i => funext fun j => (read_whole8 c (V m c main_arg7) t i j).trans (congrFun (V_main_arg7 m c) (ix2 i j))
  · exact funext fun j => (read_whole9 c (V m c main_v20) t (0 : Fin 1) j).trans (Cert.KernelIdeal.HostBias.V_main_v20_apply m c j)
  · exact funext fun j => funext fun o' => (read_whole10 c (V m c main_arg9) t j o').trans (congrFun (V_main_arg9 m c) (ix2 j o'))
  · exact funext fun o' => (read_whole11 c (V m c main_v21) t (0 : Fin 1) o').trans (Cert.KernelIdeal.HostBias.V_main_v21_apply m c o')

/-- An index of the result array is in point `t`'s block iff each coordinate is in the block's range on its axis. -/
theorem mem_blk (t : Fin cfg0.N) (i : S100000x10.Idx) :
    i ∈ ((cfg0.win 12).blk t).view.set ↔ ∀ a : Fin 2, win0_12.index t a * S4000x10.size a ≤ (i a).val
      ∧ (i a).val < win0_12.index t a * S4000x10.size a + S4000x10.size a := by
  show i ∈ ((View.whole main_v22).slice (win0_12.rect t)).set ↔ _
  rw [View.set_slice_whole, Rect.mem_set_unit]
  exact Iff.rfl

/-- Every index of the result array is in some point's block: row `r` is in block `r / 4000`. -/
theorem cover (i : S100000x10.Idx) :
    ∃ t : Fin cfg0.N, (cfg0.win 12).flush t = true ∧ i ∈ ((cfg0.win 12).blk t).view.set := by
  have hi0 : (i 0).val < 100000 := (i 0).isLt
  have hi1 : (i 1).val < 10 := (i 1).isLt
  have hN : cfg0.N = 25 := N_0
  obtain ⟨t, htv⟩ : ∃ t : Fin cfg0.N, t.val = (i 0).val / 4000 :=
    ⟨⟨(i 0).val / 4000, by rw [hN]; omega⟩, rfl⟩
  obtain ⟨e0, e1, e2, e3, e4, e5, e6, e7, ht⟩ := idx_facts t
  refine ⟨t, flush0_12 t, ?_⟩
  rw [mem_blk]
  intro a
  match a with
  | ⟨0, _⟩ =>
    show win0_12.index t 0 * 4000 ≤ (i 0).val ∧ (i 0).val < win0_12.index t 0 * 4000 + 4000
    omega
  | ⟨1, _⟩ =>
    show win0_12.index t 1 * 10 ≤ (i 1).val ∧ (i 1).val < win0_12.index t 1 * 10 + 10
    omega

/-- THE RESULT ARRAY after the run is any array that holds the row function at every node. -/
theorem final (c : Dev nD) (Gv : S100000x10.Idx → EReal) (hG : IsResult m c Gv) :
    (dats m 0 c).arrAt 12 cfg0.N = Gv :=
  (dats m 0 c).arrAt_eq_of_cover 12 Gv (fun t _ => flushed_eq m c Gv hG t) cover

/-- The kernel's run, read: the result array at such an array, the arguments unchanged. -/
theorem run (Gv : (c : Dev nD) → S100000x10.Idx → EReal) (hG : ∀ c, IsResult m c (Gv c)) :
    θ_run defs (onTc (τ := τ) (main (F := Ideal))) ⟨m, fun _ => 0, ρ⟩ fun r => ∀ c : Dev nD,
      r.2.mem ((c : Thread nD τ).loc main_v22) = Gv c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c (Gv c) (hG c)), (h c).2⟩) (run_blocks m ρ)

/-! ## The reference's result of the launch arguments is such an array -/

/-- The reference's result stage of the kernel's eleven launch arguments. -/
def G (c : Dev nD) : S100000x10.Idx → EReal :=
  Cert.ReferenceIdeal.Read.val_main_v42 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))
    (m ((c : Thread nD τ).loc main_arg10))

/-- It holds the row function at every node (the reference, read node by node). -/
theorem G_isResult (c : Dev nD) : IsResult m c (G m c) := fun n o =>
  Cert.ReferenceIdeal.RefValue.out_at _ _ _ _ _ _ _ _ _ _ _ n o

/-- THE KERNEL'S RUN: the result array ends at the reference's result of the launch arguments. -/
theorem run_G : θ_run defs (onTc (τ := τ) (main (F := Ideal))) ⟨m, fun _ => 0, ρ⟩ fun r => ∀ c : Dev nD,
      r.2.mem ((c : Thread nD τ).loc main_v22) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  run m ρ (G m) (G_isResult m)

end Cert.KernelIdeal.Blocks

end
-- ==== Proof.lean ====
/-
  The graph layer of a neighbour-mean convolution followed by a three-layer classifier, as a Pallas kernel over blocks
  of 4000 nodes, against its array-at-a-time reference: the two programs' results are equal on the extended reals.

  Both programs first aggregate, for every node, the feature rows of its in-neighbours and count them (the kernel's
  program in one pass over a feature matrix widened by a column of ones, the reference in two passes); entry by entry
  the two aggregations are the same finite sums. Everything after that acts on one node at a time — the mean
  `a / max d 1`, the convolution `mean · W_l + b_l + x · W_r`, two rectified dense layers and a last dense layer — so the
  kernel's block of 4000 nodes and the reference's whole array compute, for each node, one and the same row function of
  that node's feature row, aggregated row and degree. A narrowing of the format is the identity on the extended reals,
  a matrix product into a zero accumulator is the plain sum of products, and the only rearrangement between the two
  sides is the order of the three summands of the convolution, which addition on the extended reals allows without any
  finiteness. The 25 blocks tile the 100000 rows, so the kernel's result array ends holding the reference's result.
  The ideal pass rewrote nothing, so the kernel's idealization is its own text read at the ideal values.
-/
import proofs.«150635_j36893769072799_2_alg».proof.Defs
import proofs.«150635_j36893769072799_2_alg».proof.Proof.Gen.Kernel
import proofs.«150635_j36893769072799_2_alg».proof.Proof.Gen.Kernel.Skeleton
import proofs.«150635_j36893769072799_2_alg».proof.Proof.Gen.Kernel.Launch
import proofs.«150635_j36893769072799_2_alg».proof.Proof.Gen.Kernel.Points
import proofs.«150635_j36893769072799_2_alg».proof.Proof.Gen.Kernel.Frame
import proofs.«150635_j36893769072799_2_alg».proof.Proof.Gen.KernelIdeal
import proofs.«150635_j36893769072799_2_alg».proof.Proof.Gen.KernelIdeal.Skeleton
import proofs.«150635_j36893769072799_2_alg».proof.Proof.Gen.KernelIdeal.Launch
import proofs.«150635_j36893769072799_2_alg».proof.Proof.Gen.KernelIdeal.Points
import proofs.«150635_j36893769072799_2_alg».proof.Proof.Gen.KernelIdeal.Frame
import proofs.«150635_j36893769072799_2_alg».proof.Proof.Gen.ReferenceIdeal
import proofs.«150635_j36893769072799_2_alg».proof.Proof.Gen.Pre_finite_inputs
import proofs.«150635_j36893769072799_2_alg».proof.Proof.Gen.KernelIdeal.Value
import proofs.«150635_j36893769072799_2_alg».proof.Proof.Gen.ReferenceIdeal.Run
import proofs.«150635_j36893769072799_2_alg».proof.Proof.Gen.ReferenceIdeal.Read
import proofs.«150635_j36893769072799_2_alg».proof.Proof.Blocks
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs end with equal results: the kernel's result array is the reference's result of the
    arguments the kernel was launched with, and the reference's own run of agreeing arguments gives the same term. -/
theorem algebraic : Cert.algebraic_KernelIdeal_ReferenceIdeal := by
  intro m ρ m' ρ' _ hagree
  refine ⟨fun c => Cert.KernelIdeal.Blocks.G m c, Cert.KernelIdeal.Blocks.run_G m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [a0, a1, a2, a3, a4, a5, a6, a7, a8, a9, a10]
  unfold Cert.KernelIdeal.Blocks.G
  exact Cert.ReferenceIdeal.Read.val_main_v42_eq _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
